-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S14x2x1024 : Shape := ⟨3, ![14, 2, 1024]⟩
abbrev S1024x2048 : Shape := ⟨2, ![1024, 2048]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S14x2x1024 : S_.BroadcastsInDim S14x2x1024 (![] : Fin 0 → Fin S14x2x1024.rank)
  reducesTo_S14x2x1024_S_d0_1_2 : S14x2x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x1024x1024 .f32) (main_arg1 : FVec F S14x2x1024 .f32) (main_arg2 : FVec F S1024x2048 .f32) (main_arg3 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S14x2x1024 .f32 := Host.absf main_arg1
  let main_cst_0 : FVec F S_ .f32 := constant S_ .f32 0x7F800000#32
  let main_v5 : FVec F S14x2x1024 .f32 := broadcastInDim S14x2x1024 ![] bcast_S_S14x2x1024 main_cst_0
  let main_v6 : IVec S14x2x1024 1 := cmpf .olt main_v4 main_v5
  let main_c_1 : IVec S_ 1 := constantI S_ 1 1#1
  let main_v7 : IVec S_ 1 := (fun x v => Host.reduce IntOp.andi x v reducesTo_S14x2x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x1024x1024 : Shape := ⟨3, ![32, 1024, 1024]⟩
abbrev S14x2x1024 : Shape := ⟨3, ![14, 2, 1024]⟩
abbrev S1024x2048 : Shape := ⟨2, ![1024, 2048]⟩
abbrev S1024 : Shape := ⟨1, ![1024]⟩
abbrev S14x1x1024 : Shape := ⟨3, ![14, 1, 1024]⟩
abbrev S14x1024 : Shape := ⟨2, ![14, 1024]⟩
abbrev S1024x14 : Shape := ⟨2, ![1024, 14]⟩
abbrev S1024x1024 : Shape := ⟨2, ![1024, 1024]⟩
abbrev S1x1024 : Shape := ⟨2, ![1, 1024]⟩
abbrev S32x8x14 : Shape := ⟨3, ![32, 8, 14]⟩
abbrev S1x256x1024 : Shape := ⟨3, ![1, 256, 1024]⟩
abbrev S1x8x14 : Shape := ⟨3, ![1, 8, 14]⟩
abbrev S256x1024 : Shape := ⟨2, ![256, 1024]⟩
abbrev S256x14 : Shape := ⟨2, ![256, 14]⟩
abbrev S14 : Shape := ⟨1, ![14]⟩
abbrev S1x14 : Shape := ⟨2, ![1, 14]⟩
abbrev S8x14 : Shape := ⟨2, ![8, 14]⟩
abbrev S32x1x14 : Shape := ⟨3, ![32, 1, 14]⟩
abbrev S32x14 : Shape := ⟨2, ![32, 14]⟩

abbrev nBuf : Space → Nat
  | .hbm => 24
  | .vmem => 12
  | .smem => 0
  | _ => 0

abbrev bufTy : (tb : Table) → Fin (tcTables nBuf tb) → BufTy
  | .hbm, ⟨0, _⟩ => ⟨S32x1024x1024, .f32⟩
  | .hbm, ⟨1, _⟩ => ⟨S14x2x1024, .f32⟩
  | .hbm, ⟨2, _⟩ => ⟨S1024x2048, .f32⟩
  | .hbm, ⟨3, _⟩ => ⟨S1024, .f32⟩
  | .hbm, ⟨4, _⟩ => ⟨S14x1x1024, .f32⟩
  | .hbm, ⟨5, _⟩ => ⟨S14x1024, .f32⟩
  | .hbm, ⟨6, _⟩ => ⟨S14x1x1024, .f32⟩
  | .hbm, ⟨7, _⟩ => ⟨S14x1024, .f32⟩
  | .hbm, ⟨8, _⟩ => ⟨S14x1024, .bf16⟩
  | .hbm, ⟨9, _⟩ => ⟨S1024x14, .bf16⟩
  | .hbm, ⟨10, _⟩ => ⟨S14x1024, .bf16⟩
  | .hbm, ⟨11, _⟩ => ⟨S1024x14, .bf16⟩
  | .hbm, ⟨12, _⟩ => ⟨S14x1024, .bf16⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S32x1024x1024, .f32⟩
  | .hbm, ⟨21, _⟩ => ⟨S32x8x14, .f32⟩
  | .hbm, ⟨22, _⟩ => ⟨S32x1x14, .f32⟩
  | .hbm, ⟨23, _⟩ => ⟨S32x14, .f32⟩
  | .local _ .vmem, ⟨0, _⟩ => ⟨S1x256x1024, .f32⟩
  | .local _ .vmem, ⟨1, _⟩ => ⟨S1x256x1024, .f32⟩
  | .local _ .vmem, ⟨2, _⟩ => ⟨S1024x14, .bf16⟩
  | .local _ .vmem, ⟨3, _⟩ => ⟨S1024x14, .bf16⟩
  | .local _ .vmem, ⟨4, _⟩ => ⟨S14x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x8x14, .f32⟩
  | .local _ .vmem, ⟨11, _⟩ => ⟨S1x8x14, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x14 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x14 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S14x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x14 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S14x2x1024_S14x1x1024_0_0_0 : S14x2x1024.Slices ![0, 0, 0] S14x1x1024
  shapeCasts_S14x1x1024_S14x1024 : S14x1x1024.ShapeCasts S14x1024
  slices_S14x2x1024_S14x1x1024_0_1_0 : S14x2x1024.Slices ![0, 1, 0] S14x1x1024
  bitsLt_bf16_f32 : FTy.bits .bf16 < FTy.bits .f32
  transposes_S14x1024_S1024x14_1_0 : S14x1024.Transposes [1, 0] S1024x14
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x14_S1024x14_0_0 : ∀ a, (![0, 0] : Fin 2 → Nat) a + S1024x14.size a ≤ S1024x14.size a
  h_S1024x14 : 0 < S1024x14.numel
  shapeCasts_S1024x14_S1024x14 : S1024x14.ShapeCasts S1024x14
  reduces_S256x14_S14 : S256x14.Reduces [0] S14
  shapeCasts_S14_S1x14 : S14.ShapeCasts S1x14
  shapeCasts_S1x14_S1x14 : S1x14.ShapeCasts S1x14
  broadcasts_S1x14_S8x14 : S1x14.Broadcasts S8x14
  inb_S1x8x14_S1x8x14_0_0_0 : ∀ a, (![0, 0, 0] : Fin 3 → Nat) a + S1x8x14.size a ≤ S1x8x14.size a
  h_S1x8x14 : 0 < S1x8x14.numel
  shapeCasts_S1x8x14_S8x14 : S1x8x14.ShapeCasts S8x14
  shapeCasts_S8x14_S1x8x14 : S8x14.ShapeCasts S1x8x14
  inb_S14x1024_S14x1024_0_0 : ∀ a, (![0, 0] : Fin 2 → Nat) a + S14x1024.size a ≤ S14x1024.size a
  h_S14x1024 : 0 < S14x1024.numel
  shapeCasts_S14x1024_S14x1024 : S14x1024.ShapeCasts S14x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  slices_S32x8x14_S32x1x14_0_0_0 : S32x8x14.Slices ![0, 0, 0] S32x1x14
  shapeCasts_S32x1x14_S32x14 : S32x1x14.ShapeCasts S32x14
  dot_S256x1024_S1024x14_S256x14_1_0_0_1_n_n_wf : DotDims.WF S256x1024 S1024x14 S256x14 [1] [0] [0] [1] [] []
  dot_S256x14_S14x1024_S256x1024_1_0_0_1_n_n_wf : DotDims.WF S256x14 S14x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x14.size a ≤ S1024x14.size a
  hwx0_1 : ∀ i : grid0.Coords, EltTy.bits .bf16 = 32 ∨ (Rect.block (s := S1024x14) S1024x14.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x14.size a ≤ S1024x14.size a
  hwx0_2 : ∀ i : grid0.Coords, EltTy.bits .bf16 = 32 ∨ (Rect.block (s := S1024x14) S1024x14.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x1024.size a ≤ S14x1024.size a
  hwx0_3 : ∀ i : grid0.Coords, EltTy.bits .bf16 = 32 ∨ (Rect.block (s := S14x1024) S14x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S32x1024x1024.size a
  hwx0_7 : ∀ i : grid0.Coords, EltTy.bits .f32 = 32 ∨ (Rect.block (s := S32x1024x1024) S1x256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x14.size a ≤ S32x8x14.size a
  hwx0_8 : ∀ i : grid0.Coords, EltTy.bits .f32 = 32 ∨ (Rect.block (s := S32x8x14) S1x8x14.size (cc0_transform_8 i) (hinb0_8 i)).WholeWords (EltTy.packing .f32)

variable [Facts₀]

def dot_S256x1024_S1024x14_S256x14_1_0_0_1_n_n : DotDims S256x1024 S1024x14 S256x14 where
  lhsContracting := [1]
  rhsContracting := [0]
  lhsNonContracting := [0]
  rhsNonContracting := [1]
  lhsBatch := []
  rhsBatch := []
  wf := dot_S256x1024_S1024x14_S256x14_1_0_0_1_n_n_wf
def dot_S256x14_S14x1024_S256x1024_1_0_0_1_n_n : DotDims S256x14 S14x1024 S256x1024 where
  lhsContracting := [1]
  rhsContracting := [0]
  lhsNonContracting := [0]
  rhsNonContracting := [1]
  lhsBatch := []
  rhsBatch := []
  wf := dot_S256x14_S14x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x14.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x14.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S14x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1x8x14.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | ⟨_ + 9, h⟩ => absurd h (Nat.not_lt.2 (Nat.le_add_left _ _))

class Facts : Prop extends Facts₀ where

variable [Facts]
-- ==== ReferenceIdeal.lean ====
abbrev S32x1024x1024 : Shape := ⟨3, ![32, 1024, 1024]⟩
abbrev S14x2x1024 : Shape := ⟨3, ![14, 2, 1024]⟩
abbrev S1024x2048 : Shape := ⟨2, ![1024, 2048]⟩
abbrev S1024 : Shape := ⟨1, ![1024]⟩
abbrev S28x1024 : Shape := ⟨2, ![28, 1024]⟩
abbrev S32x1024x28 : Shape := ⟨3, ![32, 1024, 28]⟩
abbrev S_ : Shape := ⟨0, ![]⟩
abbrev S32x1024x14x2 : Shape := ⟨4, ![32, 1024, 14, 2]⟩
abbrev S32x1024x14 : Shape := ⟨3, ![32, 1024, 14]⟩
abbrev S32x1024x14x1 : Shape := ⟨4, ![32, 1024, 14, 1]⟩
abbrev S32x14 : Shape := ⟨2, ![32, 14]⟩
abbrev S14x1x1024 : Shape := ⟨3, ![14, 1, 1024]⟩
abbrev S14x1024 : Shape := ⟨2, ![14, 1024]⟩
abbrev S32x1024x2048 : Shape := ⟨3, ![32, 1024, 2048]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S14x2x1024, .f32⟩
  | .hbm, ⟨2, _⟩ => ⟨S1024x2048, .f32⟩
  | .hbm, ⟨3, _⟩ => ⟨S1024, .f32⟩
  | .hbm, ⟨4, _⟩ => ⟨S28x1024, .f32⟩
  | .hbm, ⟨5, _⟩ => ⟨S32x1024x28, .f32⟩
  | .hbm, ⟨6, _⟩ => ⟨S_, .f32⟩
  | .hbm, ⟨7, _⟩ => ⟨S32x1024x28, .f32⟩
  | .hbm, ⟨8, _⟩ => ⟨S32x1024x28, .f32⟩
  | .hbm, ⟨9, _⟩ => ⟨S32x1024x14x2, .f32⟩
  | .hbm, ⟨10, _⟩ => ⟨S_, .f32⟩
  | .hbm, ⟨11, _⟩ => ⟨S32x1024x14, .f32⟩
  | .hbm, ⟨12, _⟩ => ⟨S_, .f32⟩
  | .hbm, ⟨13, _⟩ => ⟨S32x1024x14, .f32⟩
  | .hbm, ⟨14, _⟩ => ⟨S32x1024x14, .f32⟩
  | .hbm, ⟨15, _⟩ => ⟨S32x1024x14x1, .f32⟩
  | .hbm, ⟨16, _⟩ => ⟨S32x1024x14x2, .f32⟩
  | .hbm, ⟨17, _⟩ => ⟨S32x1024x14x2, .f32⟩
  | .hbm, ⟨18, _⟩ => ⟨S32x1024x14x2, .f32⟩
  | .hbm, ⟨19, _⟩ => ⟨S_, .f32⟩
  | .hbm, ⟨20, _⟩ => ⟨S32x1024x14, .f32⟩
  | .hbm, ⟨21, _⟩ => ⟨S32x1024x14x1, .f32⟩
  | .hbm, ⟨22, _⟩ => ⟨S32x1024x14x2, .f32⟩
  | .hbm, ⟨23, _⟩ => ⟨S32x1024x14x2, .f32⟩
  | .hbm, ⟨24, _⟩ => ⟨S32x1024x14x1, .f32⟩
  | .hbm, ⟨25, _⟩ => ⟨S32x1024x14, .f32⟩
  | .hbm, ⟨26, _⟩ => ⟨S_, .f32⟩
  | .hbm, ⟨27, _⟩ => ⟨S32x14, .f32⟩
  | .hbm, ⟨28, _⟩ => ⟨S14x1x1024, .f32⟩
  | .hbm, ⟨29, _⟩ => ⟨S14x1024, .f32⟩
  | .hbm, ⟨30, _⟩ => ⟨S32x1024x1024, .f32⟩
  | .hbm, ⟨31, _⟩ => ⟨S32x1024x2048, .f32⟩
  | .hbm, ⟨32, _⟩ => ⟨S32x1024x1024, .f32⟩
  | .hbm, ⟨33, _⟩ => ⟨S1x1x1024, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S_, .f32⟩
  | .hbm, ⟨39, _⟩ => ⟨S32x1024x1024, .f32⟩
  | .hbm, ⟨40, _⟩ => ⟨S32x1024x1024, .f32⟩
  | .hbm, ⟨41, _⟩ => ⟨S_, .f32⟩
  | .hbm, ⟨42, _⟩ => ⟨S32x1024x1024, .f32⟩
  | .hbm, ⟨43, _⟩ => ⟨S32x1024x1024, .f32⟩
  | .hbm, ⟨44, _⟩ => ⟨S32x1024x1024, .f32⟩
  | .hbm, ⟨45, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S14x2x1024_S28x1024 : S14x2x1024.ShapeCasts S28x1024
  bcast_S_S32x1024x28 : S_.BroadcastsInDim S32x1024x28 (![] : Fin 0 → Fin S32x1024x28.rank)
  shapeCasts_S32x1024x28_S32x1024x14x2 : S32x1024x28.ShapeCasts S32x1024x14x2
  reducesTo_S32x1024x14x2_S32x1024x14_d3 : S32x1024x14x2.ReducesTo [3] S32x1024x14
  h_S_ : 0 < S_.numel
  bcast_S_S32x1024x14 : S_.BroadcastsInDim S32x1024x14 (![] : Fin 0 → Fin S32x1024x14.rank)
  bcast_S32x1024x14_S32x1024x14x1_0_1_2 : S32x1024x14.BroadcastsInDim S32x1024x14x1 (![0, 1, 2] : Fin 3 → Fin S32x1024x14x1.rank)
  bcast_S32x1024x14x1_S32x1024x14x2_0_1_2_3 : S32x1024x14x1.BroadcastsInDim S32x1024x14x2 (![0, 1, 2, 3] : Fin 4 → Fin S32x1024x14x2.rank)
  slices_S32x1024x14x2_S32x1024x14x1_0_0_0_1 : S32x1024x14x2.Slices ![0, 0, 0, 1] S32x1024x14x1
  shapeCasts_S32x1024x14x1_S32x1024x14 : S32x1024x14x1.ShapeCasts S32x1024x14
  reducesTo_S32x1024x14_S32x14_d1 : S32x1024x14.ReducesTo [1] S32x14
  slices_S14x2x1024_S14x1x1024_0_1_0 : S14x2x1024.Slices ![0, 1, 0] S14x1x1024
  shapeCasts_S14x1x1024_S14x1024 : S14x1x1024.ShapeCasts S14x1024
  concatenates_S32x1024x1024_S32x1024x1024_S32x1024x2048_d2 : Shape.Concatenates [S32x1024x1024, S32x1024x1024] S32x1024x2048 2
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024x1024_S28x1024_S32x1024x28_2_1_01_0_n_n_wf : DotDims.WF S32x1024x1024 S28x1024 S32x1024x28 [2] [1] [0, 1] [0] [] []
  dot_S32x1024x14_S14x1024_S32x1024x1024_2_0_01_1_n_n_wf : DotDims.WF S32x1024x14 S14x1024 S32x1024x1024 [2] [0] [0, 1] [1] [] []
  dot_S32x1024x2048_S1024x2048_S32x1024x1024_2_1_01_0_n_n_wf : DotDims.WF S32x1024x2048 S1024x2048 S32x1024x1024 [2] [1] [0, 1] [0] [] []

variable [Facts₀]

def dot_S32x1024x1024_S28x1024_S32x1024x28_2_1_01_0_n_n : DotDims S32x1024x1024 S28x1024 S32x1024x28 where
  lhsContracting := [2]
  rhsContracting := [1]
  lhsNonContracting := [0, 1]
  rhsNonContracting := [0]
  lhsBatch := []
  rhsBatch := []
  wf := dot_S32x1024x1024_S28x1024_S32x1024x28_2_1_01_0_n_n_wf
def dot_S32x1024x14_S14x1024_S32x1024x1024_2_0_01_1_n_n : DotDims S32x1024x14 S14x1024 S32x1024x1024 where
  lhsContracting := [2]
  rhsContracting := [0]
  lhsNonContracting := [0, 1]
  rhsNonContracting := [1]
  lhsBatch := []
  rhsBatch := []
  wf := dot_S32x1024x14_S14x1024_S32x1024x1024_2_0_01_1_n_n_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.KB.Cases.lean ====
/-
  The two control cases of the kernel body and what is shared by their runs.
  The grid is (batch entry, tile of 256 patches): point t is batch entry t / 4, tile t % 4. The body's first conditional
  (store the tile's column maxima) is taken exactly at the first tile of a batch entry, the second (join them with what
  the summary block already holds) exactly at the later tiles; the summary block is written back after the fourth tile.
-/
import proofs.«156527_j86320252715156_2_alg».proof.Proof.Gen.Kernel.Frame
import proofs.«156527_j86320252715156_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds exactly at the first tile of each batch entry. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- The second conditional holds exactly at the later tiles. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So no point leaves the summary window untouched. -/
theorem never_idle : ∀ i : grid0.Coords, cfg0.idle 8 i = false :=
  (by decide +kernel : ∀ i : grid0.Coords, idle0 8 i = false)

/-- One staging buffer of each output window, through which its contents are stated. -/
abbrev VO7 : View sig .tc .vmem S1x256x1024 .f32 := (Memref.whole cc0_stg7_0 : Memref sig .tc .vmem S1x256x1024 .f32).view
abbrev VO8 : View sig .tc .vmem S1x8x14 .f32 := (Memref.whole cc0_stg8_0 : Memref sig .tc .vmem S1x8x14 .f32).view

/-- Each window's current staging buffer at point t, as the pipeline passes it to the body, and its wholeness. -/
abbrev sb0 (t : Fin cfg0.N) : Memref sig .tc .vmem S1x256x1024 .f32 := win0_0.stage (cfg0.slots t 0)
abbrev hb0 (t : Fin cfg0.N) : (sb0 t).IsWhole := hstage0_0 ((cfg0.slots t 0).cast nbuf0_0)
abbrev sb1 (t : Fin cfg0.N) : Memref sig .tc .vmem S1024x14 .bf16 := win0_1.stage (cfg0.slots t 1)
abbrev hb1 (t : Fin cfg0.N) : (sb1 t).IsWhole := hstage0_1 ((cfg0.slots t 1).cast nbuf0_1)
abbrev sb2 (t : Fin cfg0.N) : Memref sig .tc .vmem S1024x14 .bf16 := win0_2.stage (cfg0.slots t 2)
abbrev hb2 (t : Fin cfg0.N) : (sb2 t).IsWhole := hstage0_2 ((cfg0.slots t 2).cast nbuf0_2)
abbrev sb3 (t : Fin cfg0.N) : Memref sig .tc .vmem S14x1024 .bf16 := win0_3.stage (cfg0.slots t 3)
abbrev hb3 (t : Fin cfg0.N) : (sb3 t).IsWhole := hstage0_3 ((cfg0.slots t 3).cast nbuf0_3)
abbrev sb4 (t : Fin cfg0.N) : Memref sig .tc .vmem S1024x1024 .bf16 := win0_4.stage (cfg0.slots t 4)
abbrev hb4 (t : Fin cfg0.N) : (sb4 t).IsWhole := hstage0_4 ((cfg0.slots t 4).cast nbuf0_4)
abbrev sb5 (t : Fin cfg0.N) : Memref sig .tc .vmem S1024x1024 .bf16 := win0_5.stage (cfg0.slots t 5)
abbrev hb5 (t : Fin cfg0.N) : (sb5 t).IsWhole := hstage0_5 ((cfg0.slots t 5).cast nbuf0_5)
abbrev sb6 (t : Fin cfg0.N) : Memref sig .tc .vmem S1x1024 .f32 := win0_6.stage (cfg0.slots t 6)
abbrev hb6 (t : Fin cfg0.N) : (sb6 t).IsWhole := hstage0_6 ((cfg0.slots t 6).cast nbuf0_6)
abbrev sb7 (t : Fin cfg0.N) : Memref sig .tc .vmem S1x256x1024 .f32 := win0_7.stage (cfg0.slots t 7)
abbrev hb7 (t : Fin cfg0.N) : (sb7 t).IsWhole := hstage0_7 ((cfg0.slots t 7).cast nbuf0_7)
abbrev sb8 (t : Fin cfg0.N) : Memref sig .tc .vmem S1x8x14 .f32 := win0_8.stage (cfg0.slots t 8)
abbrev hb8 (t : Fin cfg0.N) : (sb8 t).IsWhole := hstage0_8 ((cfg0.slots t 8).cast nbuf0_8)

end Cert.Kernel.Body

end
-- ==== Proof.KB.RunFirst.lean ====
/-
  The body run at the first tile of a batch entry: the first conditional taken, the second not. On whole staging buffers,
  the seven inputs at given contents and the two outputs at anything, the body runs to its end, leaves the inputs as they
  were and each output buffer with the stores the run met written into it (the pieces are found by the run).
-/
import proofs.«156527_j86320252715156_2_alg».proof.Proof.KB.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole)
    (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) :
    { L : List (View.Piece (Elt F) S1x256x1024 .f32) × List (View.Piece (Elt F) S1x8x14 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ (∃ f, a9.view.loc (c : Thread nD τ) ↦[a9.view.set]{fullShare} a9.view.writes (Elt F) f L.1)
                ∗ (∃ f, a10.view.loc (c : Thread nD τ) ↦[a10.view.set]{fullShare} a10.view.writes (Elt F) f L.2)) -∗ K ⟨⟩))
          ⊢ wp frame (wpE (defs₀ (F := F)) Variants.none c none) E (cc0__kernel i a2 h2 a3 h3 a4 h4 a5 h5 a6 h6 a7 h7 a8 h8 a9 h9 a10 h10) K } := by
  refine ⟨(?_, ?_), fun E K => ?run⟩
  case run =>
    dsimp only
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.Kernel.Body

end
-- ==== Proof.KB.RunLater.lean ====
/-
  The body run at a later tile of a batch entry: the first conditional not taken, the second taken. The summary block's
  buffer comes in at given contents (what the tile before left there); the body reads it, joins the tile's column maxima
  with it and stores the result back.
-/
import proofs.«156527_j86320252715156_2_alg».proof.Proof.KB.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLater (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole)
    (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) :
    { L : List (View.Piece (Elt F) S1x256x1024 .f32) × List (View.Piece (Elt F) S1x8x14 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ (∃ d, owns (c : Thread nD τ) a9 fullShare d) ∗ owns (c : Thread nD τ) a10 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ (∃ f, a9.view.loc (c : Thread nD τ) ↦[a9.view.set]{fullShare} a9.view.writes (Elt F) f L.1)
                ∗ (∃ f, a10.view.loc (c : Thread nD τ) ↦[a10.view.set]{fullShare} a10.view.writes (Elt F) f L.2)) -∗ K ⟨⟩))
          ⊢ wp frame (wpE (defs₀ (F := F)) Variants.none c none) E (cc0__kernel i a2 h2 a3 h3 a4 h4 a5 h5 a6 h6 a7 h7 a8 h8 a9 h9 a10 h10) K } := by
  refine ⟨(?_, ?_), fun E K => ?run⟩
  case run =>
    dsimp only
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6; obtain rfl := h10.eq_unread hf8
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.Kernel.Body

end
-- ==== Proof.KB.Frame.lean ====
/-
  The frame of the program: every weakly fair execution runs to its end, faults nowhere and leaves the argument arrays
  as they were. The pipeline's proof data say what each staging buffer holds after the body at each grid point: an input
  window its block; the output window of the gated rows what the point's run stored; the summary window what the run
  stored at the first tile of a batch entry and, at a later tile, what the run stored given what the tile before left —
  an accumulation along the four tiles of a batch entry, defined by recursion on the point.
-/
import proofs.«156527_j86320252715156_2_alg».proof.Proof.KB.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave in the two output buffers -/

theorem coverF7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32)
    (y : S1x256x1024.Idx) : ∃ pc ∈ (runFirst c i a2 h2 a3 h3 a4 h4 a5 h5 a6 h6 a7 h7 a8 h8 a9 h9 a10 h10 hc1 hc2 x0 x1 x2 x3 x4 x5 x6).1.1, y ∈ pc.1.set :=
  View.cover_of_tiledL (runFirst c i a2 h2 a3 h3 a4 h4 a5 h5 a6 h6 a7 h7 a8 h8 a9 h9 a10 h10 hc1 hc2 x0 x1 x2 x3 x4 x5 x6).1.1 S1x256x1024.size (by sl_kernel_rfl) y
theorem coverF8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32)
    (y : S1x8x14.Idx) : ∃ pc ∈ (runFirst c i a2 h2 a3 h3 a4 h4 a5 h5 a6 h6 a7 h7 a8 h8 a9 h9 a10 h10 hc1 hc2 x0 x1 x2 x3 x4 x5 x6).1.2, y ∈ pc.1.set :=
  View.cover_of_tiledL (runFirst c i a2 h2 a3 h3 a4 h4 a5 h5 a6 h6 a7 h7 a8 h8 a9 h9 a10 h10 hc1 hc2 x0 x1 x2 x3 x4 x5 x6).1.2 S1x8x14.size (by sl_kernel_rfl) y
theorem coverL7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32)
    (y : S1x256x1024.Idx) : ∃ pc ∈ (runLater c i a2 h2 a3 h3 a4 h4 a5 h5 a6 h6 a7 h7 a8 h8 a9 h9 a10 h10 hc1 hc2 x0 x1 x2 x3 x4 x5 x6 xo).1.1, y ∈ pc.1.set :=
  View.cover_of_tiledL (runLater c i a2 h2 a3 h3 a4 h4 a5 h5 a6 h6 a7 h7 a8 h8 a9 h9 a10 h10 hc1 hc2 x0 x1 x2 x3 x4 x5 x6 xo).1.1 S1x256x1024.size (by sl_kernel_rfl) y
theorem coverL8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32)
    (y : S1x8x14.Idx) : ∃ pc ∈ (runLater c i a2 h2 a3 h3 a4 h4 a5 h5 a6 h6 a7 h7 a8 h8 a9 h9 a10 h10 hc1 hc2 x0 x1 x2 x3 x4 x5 x6 xo).1.2, y ∈ pc.1.set :=
  View.cover_of_tiledL (runLater c i a2 h2 a3 h3 a4 h4 a5 h5 a6 h6 a7 h7 a8 h8 a9 h9 a10 h10 hc1 hc2 x0 x1 x2 x3 x4 x5 x6 xo).1.2 S1x8x14.size (by sl_kernel_rfl) y

/-- What the first-tile case leaves in the gated rows' buffer: its stores read back. -/
def outF7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) : Vec F S1x256x1024 .f32 :=
  VO7.read (Elt F) (VO7.writes (Elt F) VO7.junk (runFirst c i a2 h2 a3 h3 a4 h4 a5 h5 a6 h6 a7 h7 a8 h8 a9 h9 a10 h10 hc1 hc2 x0 x1 x2 x3 x4 x5 x6).1.1)
/-- What the first-tile case leaves in the summary buffer. -/
def outF8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) : Vec F S1x8x14 .f32 :=
  VO8.read (Elt F) (VO8.writes (Elt F) VO8.junk (runFirst c i a2 h2 a3 h3 a4 h4 a5 h5 a6 h6 a7 h7 a8 h8 a9 h9 a10 h10 hc1 hc2 x0 x1 x2 x3 x4 x5 x6).1.2)
/-- What the later-tile case leaves in the gated rows' buffer. -/
def outL7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) : Vec F S1x256x1024 .f32 :=
  VO7.read (Elt F) (VO7.writes (Elt F) VO7.junk (runLater c i a2 h2 a3 h3 a4 h4 a5 h5 a6 h6 a7 h7 a8 h8 a9 h9 a10 h10 hc1 hc2 x0 x1 x2 x3 x4 x5 x6 xo).1.1)
/-- What the later-tile case leaves in the summary buffer, given what it held. -/
def outL8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) : Vec F S1x8x14 .f32 :=
  VO8.read (Elt F) (VO8.writes (Elt F) VO8.junk (runLater c i a2 h2 a3 h3 a4 h4 a5 h5 a6 h6 a7 h7 a8 h8 a9 h9 a10 h10 hc1 hc2 x0 x1 x2 x3 x4 x5 x6 xo).1.2)

/-! ## The accumulation along the tiles -/

/-- What the summary buffer holds after the body at position n. -/
def accAt (c : Dev nD) : (n : ℕ) → n < cfg0.N → Vec F S1x8x14 .f32
  | 0, hn => outF8 c (grid0.coords ⟨0, hn⟩) (sb0 ⟨0, hn⟩) (hb0 ⟨0, hn⟩) (sb1 ⟨0, hn⟩) (hb1 ⟨0, hn⟩) (sb2 ⟨0, hn⟩) (hb2 ⟨0, hn⟩) (sb3 ⟨0, hn⟩) (hb3 ⟨0, hn⟩) (sb4 ⟨0, hn⟩) (hb4 ⟨0, hn⟩) (sb5 ⟨0, hn⟩) (hb5 ⟨0, hn⟩) (sb6 ⟨0, hn⟩) (hb6 ⟨0, hn⟩) (sb7 ⟨0, hn⟩) (hb7 ⟨0, hn⟩) (sb8 ⟨0, hn⟩) (hb8 ⟨0, hn⟩)
      ((first_iff ⟨0, hn⟩).mpr (Nat.zero_mod _)) (fun h => ((later_iff ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      outF8 c (grid0.coords ⟨n + 1, hn⟩) (sb0 ⟨n + 1, hn⟩) (hb0 ⟨n + 1, hn⟩) (sb1 ⟨n + 1, hn⟩) (hb1 ⟨n + 1, hn⟩) (sb2 ⟨n + 1, hn⟩) (hb2 ⟨n + 1, hn⟩) (sb3 ⟨n + 1, hn⟩) (hb3 ⟨n + 1, hn⟩) (sb4 ⟨n + 1, hn⟩) (hb4 ⟨n + 1, hn⟩) (sb5 ⟨n + 1, hn⟩) (hb5 ⟨n + 1, hn⟩) (sb6 ⟨n + 1, hn⟩) (hb6 ⟨n + 1, hn⟩) (sb7 ⟨n + 1, hn⟩) (hb7 ⟨n + 1, hn⟩) (sb8 ⟨n + 1, hn⟩) (hb8 ⟨n + 1, hn⟩)
        ((first_iff ⟨n + 1, hn⟩).mpr h0) (fun h => ((later_iff ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      outL8 c (grid0.coords ⟨n + 1, hn⟩) (sb0 ⟨n + 1, hn⟩) (hb0 ⟨n + 1, hn⟩) (sb1 ⟨n + 1, hn⟩) (hb1 ⟨n + 1, hn⟩) (sb2 ⟨n + 1, hn⟩) (hb2 ⟨n + 1, hn⟩) (sb3 ⟨n + 1, hn⟩) (hb3 ⟨n + 1, hn⟩) (sb4 ⟨n + 1, hn⟩) (hb4 ⟨n + 1, hn⟩) (sb5 ⟨n + 1, hn⟩) (hb5 ⟨n + 1, hn⟩) (sb6 ⟨n + 1, hn⟩) (hb6 ⟨n + 1, hn⟩) (sb7 ⟨n + 1, hn⟩) (hb7 ⟨n + 1, hn⟩) (sb8 ⟨n + 1, hn⟩) (hb8 ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
        (accAt c n (Nat.lt_of_succ_lt hn))

theorem accAt_first (c : Dev nD) (t : Fin cfg0.N) (h0 : t.val % 4 = 0) :
    accAt m c t.val t.isLt = outF8 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t)
      ((first_iff t).mpr h0) (fun h => ((later_iff t).mp h) h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem accAt_later (c : Dev nD) (t : Fin cfg0.N) (h0 : ¬ t.val % 4 = 0) :
    accAt m c t.val t.isLt = outL8 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t)
      (fun h => h0 ((first_iff t).mp h)) ((later_iff t).mpr h0) (iblk m c 0 t) (iblk m c 1 t) (iblk m c 2 t) (iblk m c 3 t) (iblk m c 4 t) (iblk m c 5 t) (iblk m c 6 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the gated rows' buffer holds after the body at point t. -/
def rowsAt (c : Dev nD) (t : Fin cfg0.N) : Vec F S1x256x1024 .f32 :=
  if h0 : t.val % 4 = 0 then
    outF7 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t) ((first_iff t).mpr h0) (fun h => ((later_iff t).mp h) h0) (iblk m c 0 t) (iblk m c 1 t) (iblk m c 2 t) (iblk m c 3 t) (iblk m c 4 t) (iblk m c 5 t) (iblk m c 6 t)
  else
    outL7 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t) (fun h => h0 ((first_iff t).mp h)) ((later_iff t).mpr h0) (iblk m c 0 t) (iblk m c 1 t) (iblk m c 2 t) (iblk m c 3 t) (iblk m c 4 t) (iblk m c 5 t) (iblk m c 6 t)
      (accAt m c (t.val - 1) (Nat.lt_of_le_of_lt (Nat.sub_le _ _) t.isLt))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAt m c t
    | ⟨8, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsAt m c t := by dsimp only [dats]
theorem after_8 (c : Dev nD) (t : Fin cfg0.N) : (dats m 0 c).after 8 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later tile the summary buffer holds what the body left at the point before: the block is written back only
    after a batch entry's fourth tile. -/
theorem before_8_later (c : Dev nD) (t : Fin cfg0.N) (h0 : ¬ t.val % 4 = 0) (d) :
    (dats m 0 c).before 8 t d = accAt m c (t.val - 1) (Nat.lt_of_le_of_lt (Nat.sub_le _ _) t.isLt) := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    never_idle (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d))
    ∗ (∃ d, owns (c : Thread nD τ) (sb4 t) fullShare ((dats m 0 c).before 4 t d))
    ∗ (∃ d, owns (c : Thread nD τ) (sb5 t) fullShare ((dats m 0 c).before 5 t d))
    ∗ (∃ d, owns (c : Thread nD τ) (sb6 t) fullShare ((dats m 0 c).before 6 t d))
    ∗ (∃ d, owns (c : Thread nD τ) (sb7 t) fullShare ((dats m 0 c).before 7 t d))
    ∗ (∃ d, owns (c : Thread nD τ) (sb8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (sb0 t) fullShare ((dats m 0 c).after 0 t)
    ∗ owns (c : Thread nD τ) (sb1 t) fullShare ((dats m 0 c).after 1 t)
    ∗ owns (c : Thread nD τ) (sb2 t) fullShare ((dats m 0 c).after 2 t)
    ∗ owns (c : Thread nD τ) (sb3 t) fullShare ((dats m 0 c).after 3 t)
    ∗ owns (c : Thread nD τ) (sb4 t) fullShare ((dats m 0 c).after 4 t)
    ∗ owns (c : Thread nD τ) (sb5 t) fullShare ((dats m 0 c).after 5 t)
    ∗ owns (c : Thread nD τ) (sb6 t) fullShare ((dats m 0 c).after 6 t)
    ∗ owns (c : Thread nD τ) (sb7 t) fullShare ((dats m 0 c).after 7 t)
    ∗ owns (c : Thread nD τ) (sb8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 4 = 0
  · rw [accAt_first m c t h0]
    unfold rowsAt; rw [dif_pos h0]
    unfold outF7 outF8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((first_iff t).mpr h0) (fun h => ((later_iff t).mp h) h0)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverF7 c _ _ _ _ _ _ _ _ _ _ _ _ _ _ _ _ _ _ _ _ _ _ _ _ _ _ _ _)
    unfold owns; iexists _; isplitr
    swap; · iexact H8
    ipureintro; exact View.read_writes_of_cover _ _ _ _ _ (coverF8 c _ _ _ _ _ _ _ _ _ _ _ _ _ _ _ _ _ _ _ _ _ _ _ _ _ _ _ _)
  · rw [accAt_later m c t h0]
    unfold rowsAt; rw [dif_neg h0]
    simp only [before_8_later m c t h0]
    unfold outL7 outL8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (fun h => h0 ((first_iff t).mp h)) ((later_iff t).mpr h0)
      (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverL7 c _ _ _ _ _ _ _ _ _ _ _ _ _ _ _ _ _ _ _ _ _ _ _ _ _ _ _ _ _)
    unfold owns; iexists _; isplitr
    swap; · iexact H8
    ipureintro; exact View.read_writes_of_cover _ _ _ _ _ (coverL8 c _ _ _ _ _ _ _ _ _ _ _ _ _ _ _ _ _ _ _ _ _ _ _ _ _ _ _ _ _)

/-- The library's body obligation at every point: the summary window is idle nowhere, so its buffer is always left at what
    the body stored. -/
theorem body_obligation (c : Dev nD) : BodyObligation (dats (F := F) m 0 c) (defs₀ (F := F)) Variants.none () Set.univ := fun t => by
  rw [bigSep_W0, bigSep_W0]
  dsimp only
  rw [show idle0 8 (grid0.coords t) = false from never_idle _]
  exact sound_body m c t

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The two control cases of the kernel body and what is shared by their runs.
  The grid is (batch entry, tile of 256 patches): point t is batch entry t / 4, tile t % 4. The body's first conditional
  (store the tile's column maxima) is taken exactly at the first tile of a batch entry, the second (join them with what
  the summary block already holds) exactly at the later tiles; the summary block is written back after the fourth tile.
-/
import proofs.«156527_j86320252715156_2_alg».proof.Proof.Gen.KernelIdeal.Frame
import proofs.«156527_j86320252715156_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds exactly at the first tile of each batch entry. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- The second conditional holds exactly at the later tiles. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So no point leaves the summary window untouched. -/
theorem never_idle : ∀ i : grid0.Coords, cfg0.idle 8 i = false :=
  (by decide +kernel : ∀ i : grid0.Coords, idle0 8 i = false)

/-- One staging buffer of each output window, through which its contents are stated. -/
abbrev VO7 : View sig .tc .vmem S1x256x1024 .f32 := (Memref.whole cc0_stg7_0 : Memref sig .tc .vmem S1x256x1024 .f32).view
abbrev VO8 : View sig .tc .vmem S1x8x14 .f32 := (Memref.whole cc0_stg8_0 : Memref sig .tc .vmem S1x8x14 .f32).view

/-- Each window's current staging buffer at point t, as the pipeline passes it to the body, and its wholeness. -/
abbrev sb0 (t : Fin cfg0.N) : Memref sig .tc .vmem S1x256x1024 .f32 := win0_0.stage (cfg0.slots t 0)
abbrev hb0 (t : Fin cfg0.N) : (sb0 t).IsWhole := hstage0_0 ((cfg0.slots t 0).cast nbuf0_0)
abbrev sb1 (t : Fin cfg0.N) : Memref sig .tc .vmem S1024x14 .bf16 := win0_1.stage (cfg0.slots t 1)
abbrev hb1 (t : Fin cfg0.N) : (sb1 t).IsWhole := hstage0_1 ((cfg0.slots t 1).cast nbuf0_1)
abbrev sb2 (t : Fin cfg0.N) : Memref sig .tc .vmem S1024x14 .bf16 := win0_2.stage (cfg0.slots t 2)
abbrev hb2 (t : Fin cfg0.N) : (sb2 t).IsWhole := hstage0_2 ((cfg0.slots t 2).cast nbuf0_2)
abbrev sb3 (t : Fin cfg0.N) : Memref sig .tc .vmem S14x1024 .bf16 := win0_3.stage (cfg0.slots t 3)
abbrev hb3 (t : Fin cfg0.N) : (sb3 t).IsWhole := hstage0_3 ((cfg0.slots t 3).cast nbuf0_3)
abbrev sb4 (t : Fin cfg0.N) : Memref sig .tc .vmem S1024x1024 .bf16 := win0_4.stage (cfg0.slots t 4)
abbrev hb4 (t : Fin cfg0.N) : (sb4 t).IsWhole := hstage0_4 ((cfg0.slots t 4).cast nbuf0_4)
abbrev sb5 (t : Fin cfg0.N) : Memref sig .tc .vmem S1024x1024 .bf16 := win0_5.stage (cfg0.slots t 5)
abbrev hb5 (t : Fin cfg0.N) : (sb5 t).IsWhole := hstage0_5 ((cfg0.slots t 5).cast nbuf0_5)
abbrev sb6 (t : Fin cfg0.N) : Memref sig .tc .vmem S1x1024 .f32 := win0_6.stage (cfg0.slots t 6)
abbrev hb6 (t : Fin cfg0.N) : (sb6 t).IsWhole := hstage0_6 ((cfg0.slots t 6).cast nbuf0_6)
abbrev sb7 (t : Fin cfg0.N) : Memref sig .tc .vmem S1x256x1024 .f32 := win0_7.stage (cfg0.slots t 7)
abbrev hb7 (t : Fin cfg0.N) : (sb7 t).IsWhole := hstage0_7 ((cfg0.slots t 7).cast nbuf0_7)
abbrev sb8 (t : Fin cfg0.N) : Memref sig .tc .vmem S1x8x14 .f32 := win0_8.stage (cfg0.slots t 8)
abbrev hb8 (t : Fin cfg0.N) : (sb8 t).IsWhole := hstage0_8 ((cfg0.slots t 8).cast nbuf0_8)

end Cert.KernelIdeal.Body

end
-- ==== Proof.KI.RunFirst.lean ====
/-
  The body run at the first tile of a batch entry: the first conditional taken, the second not. On whole staging buffers,
  the seven inputs at given contents and the two outputs at anything, the body runs to its end, leaves the inputs as they
  were and each output buffer with the stores the run met written into it (the pieces are found by the run).
-/
import proofs.«156527_j86320252715156_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole)
    (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) :
    { L : List (View.Piece (Elt F) S1x256x1024 .f32) × List (View.Piece (Elt F) S1x8x14 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ (∃ f, a9.view.loc (c : Thread nD τ) ↦[a9.view.set]{fullShare} a9.view.writes (Elt F) f L.1)
                ∗ (∃ f, a10.view.loc (c : Thread nD τ) ↦[a10.view.set]{fullShare} a10.view.writes (Elt F) f L.2)) -∗ K ⟨⟩))
          ⊢ wp frame (wpE (defs₀ (F := F)) Variants.none c none) E (cc0__kernel i a2 h2 a3 h3 a4 h4 a5 h5 a6 h6 a7 h7 a8 h8 a9 h9 a10 h10) K } := by
  refine ⟨(?_, ?_), fun E K => ?run⟩
  case run =>
    dsimp only
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.KernelIdeal.Body

end
-- ==== Proof.KI.RunLater.lean ====
/-
  The body run at a later tile of a batch entry: the first conditional not taken, the second taken. The summary block's
  buffer comes in at given contents (what the tile before left there); the body reads it, joins the tile's column maxima
  with it and stores the result back.
-/
import proofs.«156527_j86320252715156_2_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLater (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole)
    (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) :
    { L : List (View.Piece (Elt F) S1x256x1024 .f32) × List (View.Piece (Elt F) S1x8x14 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ (∃ d, owns (c : Thread nD τ) a9 fullShare d) ∗ owns (c : Thread nD τ) a10 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ (∃ f, a9.view.loc (c : Thread nD τ) ↦[a9.view.set]{fullShare} a9.view.writes (Elt F) f L.1)
                ∗ (∃ f, a10.view.loc (c : Thread nD τ) ↦[a10.view.set]{fullShare} a10.view.writes (Elt F) f L.2)) -∗ K ⟨⟩))
          ⊢ wp frame (wpE (defs₀ (F := F)) Variants.none c none) E (cc0__kernel i a2 h2 a3 h3 a4 h4 a5 h5 a6 h6 a7 h7 a8 h8 a9 h9 a10 h10) K } := by
  refine ⟨(?_, ?_), fun E K => ?run⟩
  case run =>
    dsimp only
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6; obtain rfl := h10.eq_unread hf8
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.KernelIdeal.Body

end
-- ==== Proof.KI.Frame.lean ====
/-
  The frame of the program: every weakly fair execution runs to its end, faults nowhere and leaves the argument arrays
  as they were. The pipeline's proof data say what each staging buffer holds after the body at each grid point: an input
  window its block; the output window of the gated rows what the point's run stored; the summary window what the run
  stored at the first tile of a batch entry and, at a later tile, what the run stored given what the tile before left —
  an accumulation along the four tiles of a batch entry, defined by recursion on the point.
-/
import proofs.«156527_j86320252715156_2_alg».proof.Proof.KI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave in the two output buffers -/

theorem coverF7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32)
    (y : S1x256x1024.Idx) : ∃ pc ∈ (runFirst c i a2 h2 a3 h3 a4 h4 a5 h5 a6 h6 a7 h7 a8 h8 a9 h9 a10 h10 hc1 hc2 x0 x1 x2 x3 x4 x5 x6).1.1, y ∈ pc.1.set :=
  View.cover_of_tiledL (runFirst c i a2 h2 a3 h3 a4 h4 a5 h5 a6 h6 a7 h7 a8 h8 a9 h9 a10 h10 hc1 hc2 x0 x1 x2 x3 x4 x5 x6).1.1 S1x256x1024.size (by sl_kernel_rfl) y
theorem coverF8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32)
    (y : S1x8x14.Idx) : ∃ pc ∈ (runFirst c i a2 h2 a3 h3 a4 h4 a5 h5 a6 h6 a7 h7 a8 h8 a9 h9 a10 h10 hc1 hc2 x0 x1 x2 x3 x4 x5 x6).1.2, y ∈ pc.1.set :=
  View.cover_of_tiledL (runFirst c i a2 h2 a3 h3 a4 h4 a5 h5 a6 h6 a7 h7 a8 h8 a9 h9 a10 h10 hc1 hc2 x0 x1 x2 x3 x4 x5 x6).1.2 S1x8x14.size (by sl_kernel_rfl) y
theorem coverL7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32)
    (y : S1x256x1024.Idx) : ∃ pc ∈ (runLater c i a2 h2 a3 h3 a4 h4 a5 h5 a6 h6 a7 h7 a8 h8 a9 h9 a10 h10 hc1 hc2 x0 x1 x2 x3 x4 x5 x6 xo).1.1, y ∈ pc.1.set :=
  View.cover_of_tiledL (runLater c i a2 h2 a3 h3 a4 h4 a5 h5 a6 h6 a7 h7 a8 h8 a9 h9 a10 h10 hc1 hc2 x0 x1 x2 x3 x4 x5 x6 xo).1.1 S1x256x1024.size (by sl_kernel_rfl) y
theorem coverL8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32)
    (y : S1x8x14.Idx) : ∃ pc ∈ (runLater c i a2 h2 a3 h3 a4 h4 a5 h5 a6 h6 a7 h7 a8 h8 a9 h9 a10 h10 hc1 hc2 x0 x1 x2 x3 x4 x5 x6 xo).1.2, y ∈ pc.1.set :=
  View.cover_of_tiledL (runLater c i a2 h2 a3 h3 a4 h4 a5 h5 a6 h6 a7 h7 a8 h8 a9 h9 a10 h10 hc1 hc2 x0 x1 x2 x3 x4 x5 x6 xo).1.2 S1x8x14.size (by sl_kernel_rfl) y

/-- What the first-tile case leaves in the gated rows' buffer: its stores read back. -/
def outF7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) : Vec F S1x256x1024 .f32 :=
  VO7.read (Elt F) (VO7.writes (Elt F) VO7.junk (runFirst c i a2 h2 a3 h3 a4 h4 a5 h5 a6 h6 a7 h7 a8 h8 a9 h9 a10 h10 hc1 hc2 x0 x1 x2 x3 x4 x5 x6).1.1)
/-- What the first-tile case leaves in the summary buffer. -/
def outF8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) : Vec F S1x8x14 .f32 :=
  VO8.read (Elt F) (VO8.writes (Elt F) VO8.junk (runFirst c i a2 h2 a3 h3 a4 h4 a5 h5 a6 h6 a7 h7 a8 h8 a9 h9 a10 h10 hc1 hc2 x0 x1 x2 x3 x4 x5 x6).1.2)
/-- What the later-tile case leaves in the gated rows' buffer. -/
def outL7 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) : Vec F S1x256x1024 .f32 :=
  VO7.read (Elt F) (VO7.writes (Elt F) VO7.junk (runLater c i a2 h2 a3 h3 a4 h4 a5 h5 a6 h6 a7 h7 a8 h8 a9 h9 a10 h10 hc1 hc2 x0 x1 x2 x3 x4 x5 x6 xo).1.1)
/-- What the later-tile case leaves in the summary buffer, given what it held. -/
def outL8 (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) : Vec F S1x8x14 .f32 :=
  VO8.read (Elt F) (VO8.writes (Elt F) VO8.junk (runLater c i a2 h2 a3 h3 a4 h4 a5 h5 a6 h6 a7 h7 a8 h8 a9 h9 a10 h10 hc1 hc2 x0 x1 x2 x3 x4 x5 x6 xo).1.2)

/-! ## The accumulation along the tiles -/

/-- What the summary buffer holds after the body at position n. -/
def accAt (c : Dev nD) : (n : ℕ) → n < cfg0.N → Vec F S1x8x14 .f32
  | 0, hn => outF8 c (grid0.coords ⟨0, hn⟩) (sb0 ⟨0, hn⟩) (hb0 ⟨0, hn⟩) (sb1 ⟨0, hn⟩) (hb1 ⟨0, hn⟩) (sb2 ⟨0, hn⟩) (hb2 ⟨0, hn⟩) (sb3 ⟨0, hn⟩) (hb3 ⟨0, hn⟩) (sb4 ⟨0, hn⟩) (hb4 ⟨0, hn⟩) (sb5 ⟨0, hn⟩) (hb5 ⟨0, hn⟩) (sb6 ⟨0, hn⟩) (hb6 ⟨0, hn⟩) (sb7 ⟨0, hn⟩) (hb7 ⟨0, hn⟩) (sb8 ⟨0, hn⟩) (hb8 ⟨0, hn⟩)
      ((first_iff ⟨0, hn⟩).mpr (Nat.zero_mod _)) (fun h => ((later_iff ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      outF8 c (grid0.coords ⟨n + 1, hn⟩) (sb0 ⟨n + 1, hn⟩) (hb0 ⟨n + 1, hn⟩) (sb1 ⟨n + 1, hn⟩) (hb1 ⟨n + 1, hn⟩) (sb2 ⟨n + 1, hn⟩) (hb2 ⟨n + 1, hn⟩) (sb3 ⟨n + 1, hn⟩) (hb3 ⟨n + 1, hn⟩) (sb4 ⟨n + 1, hn⟩) (hb4 ⟨n + 1, hn⟩) (sb5 ⟨n + 1, hn⟩) (hb5 ⟨n + 1, hn⟩) (sb6 ⟨n + 1, hn⟩) (hb6 ⟨n + 1, hn⟩) (sb7 ⟨n + 1, hn⟩) (hb7 ⟨n + 1, hn⟩) (sb8 ⟨n + 1, hn⟩) (hb8 ⟨n + 1, hn⟩)
        ((first_iff ⟨n + 1, hn⟩).mpr h0) (fun h => ((later_iff ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      outL8 c (grid0.coords ⟨n + 1, hn⟩) (sb0 ⟨n + 1, hn⟩) (hb0 ⟨n + 1, hn⟩) (sb1 ⟨n + 1, hn⟩) (hb1 ⟨n + 1, hn⟩) (sb2 ⟨n + 1, hn⟩) (hb2 ⟨n + 1, hn⟩) (sb3 ⟨n + 1, hn⟩) (hb3 ⟨n + 1, hn⟩) (sb4 ⟨n + 1, hn⟩) (hb4 ⟨n + 1, hn⟩) (sb5 ⟨n + 1, hn⟩) (hb5 ⟨n + 1, hn⟩) (sb6 ⟨n + 1, hn⟩) (hb6 ⟨n + 1, hn⟩) (sb7 ⟨n + 1, hn⟩) (hb7 ⟨n + 1, hn⟩) (sb8 ⟨n + 1, hn⟩) (hb8 ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
        (accAt c n (Nat.lt_of_succ_lt hn))

theorem accAt_first (c : Dev nD) (t : Fin cfg0.N) (h0 : t.val % 4 = 0) :
    accAt m c t.val t.isLt = outF8 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t)
      ((first_iff t).mpr h0) (fun h => ((later_iff t).mp h) h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem accAt_later (c : Dev nD) (t : Fin cfg0.N) (h0 : ¬ t.val % 4 = 0) :
    accAt m c t.val t.isLt = outL8 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t)
      (fun h => h0 ((first_iff t).mp h)) ((later_iff t).mpr h0) (iblk m c 0 t) (iblk m c 1 t) (iblk m c 2 t) (iblk m c 3 t) (iblk m c 4 t) (iblk m c 5 t) (iblk m c 6 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the gated rows' buffer holds after the body at point t. -/
def rowsAt (c : Dev nD) (t : Fin cfg0.N) : Vec F S1x256x1024 .f32 :=
  if h0 : t.val % 4 = 0 then
    outF7 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t) ((first_iff t).mpr h0) (fun h => ((later_iff t).mp h) h0) (iblk m c 0 t) (iblk m c 1 t) (iblk m c 2 t) (iblk m c 3 t) (iblk m c 4 t) (iblk m c 5 t) (iblk m c 6 t)
  else
    outL7 c (grid0.coords t) (sb0 t) (hb0 t) (sb1 t) (hb1 t) (sb2 t) (hb2 t) (sb3 t) (hb3 t) (sb4 t) (hb4 t) (sb5 t) (hb5 t) (sb6 t) (hb6 t) (sb7 t) (hb7 t) (sb8 t) (hb8 t) (fun h => h0 ((first_iff t).mp h)) ((later_iff t).mpr h0) (iblk m c 0 t) (iblk m c 1 t) (iblk m c 2 t) (iblk m c 3 t) (iblk m c 4 t) (iblk m c 5 t) (iblk m c 6 t)
      (accAt m c (t.val - 1) (Nat.lt_of_le_of_lt (Nat.sub_le _ _) t.isLt))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAt m c t
    | ⟨8, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsAt m c t := by dsimp only [dats]
theorem after_8 (c : Dev nD) (t : Fin cfg0.N) : (dats m 0 c).after 8 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later tile the summary buffer holds what the body left at the point before: the block is written back only
    after a batch entry's fourth tile. -/
theorem before_8_later (c : Dev nD) (t : Fin cfg0.N) (h0 : ¬ t.val % 4 = 0) (d) :
    (dats m 0 c).before 8 t d = accAt m c (t.val - 1) (Nat.lt_of_le_of_lt (Nat.sub_le _ _) t.isLt) := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    never_idle (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d))
    ∗ (∃ d, owns (c : Thread nD τ) (sb4 t) fullShare ((dats m 0 c).before 4 t d))
    ∗ (∃ d, owns (c : Thread nD τ) (sb5 t) fullShare ((dats m 0 c).before 5 t d))
    ∗ (∃ d, owns (c : Thread nD τ) (sb6 t) fullShare ((dats m 0 c).before 6 t d))
    ∗ (∃ d, owns (c : Thread nD τ) (sb7 t) fullShare ((dats m 0 c).before 7 t d))
    ∗ (∃ d, owns (c : Thread nD τ) (sb8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (sb0 t) fullShare ((dats m 0 c).after 0 t)
    ∗ owns (c : Thread nD τ) (sb1 t) fullShare ((dats m 0 c).after 1 t)
    ∗ owns (c : Thread nD τ) (sb2 t) fullShare ((dats m 0 c).after 2 t)
    ∗ owns (c : Thread nD τ) (sb3 t) fullShare ((dats m 0 c).after 3 t)
    ∗ owns (c : Thread nD τ) (sb4 t) fullShare ((dats m 0 c).after 4 t)
    ∗ owns (c : Thread nD τ) (sb5 t) fullShare ((dats m 0 c).after 5 t)
    ∗ owns (c : Thread nD τ) (sb6 t) fullShare ((dats m 0 c).after 6 t)
    ∗ owns (c : Thread nD τ) (sb7 t) fullShare ((dats m 0 c).after 7 t)
    ∗ owns (c : Thread nD τ) (sb8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 4 = 0
  · rw [accAt_first m c t h0]
    unfold rowsAt; rw [dif_pos h0]
    unfold outF7 outF8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((first_iff t).mpr h0) (fun h => ((later_iff t).mp h) h0)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverF7 c _ _ _ _ _ _ _ _ _ _ _ _ _ _ _ _ _ _ _ _ _ _ _ _ _ _ _ _)
    unfold owns; iexists _; isplitr
    swap; · iexact H8
    ipureintro; exact View.read_writes_of_cover _ _ _ _ _ (coverF8 c _ _ _ _ _ _ _ _ _ _ _ _ _ _ _ _ _ _ _ _ _ _ _ _ _ _ _ _)
  · rw [accAt_later m c t h0]
    unfold rowsAt; rw [dif_neg h0]
    simp only [before_8_later m c t h0]
    unfold outL7 outL8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (fun h => h0 ((first_iff t).mp h)) ((later_iff t).mpr h0)
      (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverL7 c _ _ _ _ _ _ _ _ _ _ _ _ _ _ _ _ _ _ _ _ _ _ _ _ _ _ _ _ _)
    unfold owns; iexists _; isplitr
    swap; · iexact H8
    ipureintro; exact View.read_writes_of_cover _ _ _ _ _ (coverL8 c _ _ _ _ _ _ _ _ _ _ _ _ _ _ _ _ _ _ _ _ _ _ _ _ _ _ _ _ _)

/-- The library's body obligation at every point: the summary window is idle nowhere, so its buffer is always left at what
    the body stored. -/
theorem body_obligation (c : Dev nD) : BodyObligation (dats (F := F) m 0 c) (defs₀ (F := F)) Variants.none () Set.univ := fun t => by
  rw [bigSep_W0, bigSep_W0]
  dsimp only
  rw [show idle0 8 (grid0.coords t) = false from never_idle _]
  exact sound_body m c t

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.Pieces.lean ====
/-
  What the two cases' stores leave in the output buffers, named: each case stores once into each output buffer, through
  the whole block from the origin, so the buffer reads back as that store's value — the body's arithmetic applied to
  the blocks the inputs' buffers held (a load through a whole buffer reads its contents).
-/
import proofs.«156527_j86320252715156_2_alg».proof.Proof.KI.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0, 0] : Fin 3 → ℕ) = fun _ => 0 := by funext a; fin_cases a <;> rfl
theorem zeros2 : (![0, 0] : Fin 2 → ℕ) = fun _ => 0 := by funext a; fin_cases a <;> rfl

/-- A load through the whole of a whole buffer reads the buffer's contents. -/
theorem load_whole {S : Shape} {e : EltTy} (a : Memref sig .tc .vmem S e) (h : a.IsWhole) {off : Fin S.rank → ℕ}
    (hz : off = fun _ => 0) (inb : ∀ ax, off ax + S.size ax ≤ S.size ax) (x : S.Idx → Elt F e) :
    View.readAt (Elt F) a.view (Rect.unit off S.size inb).toLoadRect (h.unread x) = x := by
  rw [View.readAt_eq_ld, h.read_unread, View.ld_unit_zero hz]

theorem outF8_eq (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) :
    outF8 c i a2 h2 a3 h3 a4 h4 a5 h5 a6 h6 a7 h7 a8 h8 a9 h9 a10 h10 hc1 hc2 x0 x1 x2 x3 x4 x5 x6 = k0_pay6 x0 x1 x2 := by
  unfold outF8
  rw [View.read_writes_eq_canon _ _ _ (coverF8 c i a2 h2 a3 h3 a4 h4 a5 h5 a6 h6 a7 h7 a8 h8 a9 h9 a10 h10 hc1 hc2 x0 x1 x2 x3 x4 x5 x6)]
  unfold runFirst; dsimp only; sl_unfold_words
  refine (View.canon_unit_zero (S := S1x8x14) zeros3 inb_S1x8x14_S1x8x14_0_0_0 _).trans ?_
  rw [load_whole a2 h2 zeros3, load_whole a3 h3 zeros2, load_whole a4 h4 zeros2]

theorem outL8_eq (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) :
    outL8 c i a2 h2 a3 h3 a4 h4 a5 h5 a6 h6 a7 h7 a8 h8 a9 h9 a10 h10 hc1 hc2 x0 x1 x2 x3 x4 x5 x6 xo = k0_pay7 x0 x1 x2 xo := by
  unfold outL8
  rw [View.read_writes_eq_canon _ _ _ (coverL8 c i a2 h2 a3 h3 a4 h4 a5 h5 a6 h6 a7 h7 a8 h8 a9 h9 a10 h10 hc1 hc2 x0 x1 x2 x3 x4 x5 x6 xo)]
  unfold runLater; dsimp only; sl_unfold_words
  refine (View.canon_unit_zero (S := S1x8x14) zeros3 inb_S1x8x14_S1x8x14_0_0_0 _).trans ?_
  rw [load_whole a2 h2 zeros3, load_whole a3 h3 zeros2, load_whole a4 h4 zeros2, load_whole a10 h10 zeros3]

theorem outF7_eq (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : k0_cond1 i = 1#1) (hc2 : ¬ k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) :
    outF7 c i a2 h2 a3 h3 a4 h4 a5 h5 a6 h6 a7 h7 a8 h8 a9 h9 a10 h10 hc1 hc2 x0 x1 x2 x3 x4 x5 x6 = k0_pay1 (k0_pay2 x0) (k0_pay3 x0) (k0_pay8 x0 x1 x2 x3) (k0_pay9 x0 x1 x2 x3) (k0_pay10 x4) x5 x6 := by
  unfold outF7
  rw [View.read_writes_eq_canon _ _ _ (coverF7 c i a2 h2 a3 h3 a4 h4 a5 h5 a6 h6 a7 h7 a8 h8 a9 h9 a10 h10 hc1 hc2 x0 x1 x2 x3 x4 x5 x6)]
  unfold runFirst; dsimp only; sl_unfold_words
  refine (View.canon_unit_zero (S := S1x256x1024) zeros3 inb_S1x256x1024_S1x256x1024_0_0_0 _).trans ?_
  rw [load_whole a2 h2 zeros3, load_whole a3 h3 zeros2, load_whole a4 h4 zeros2, load_whole a5 h5 zeros2,
    load_whole a6 h6 zeros2, load_whole a7 h7 zeros2, load_whole a8 h8 zeros2]

theorem outL7_eq (c : Dev nD) (i : grid0.Coords) (a2 : Memref sig .tc .vmem S1x256x1024 .f32) (h2 : a2.IsWhole) (a3 : Memref sig .tc .vmem S1024x14 .bf16) (h3 : a3.IsWhole) (a4 : Memref sig .tc .vmem S1024x14 .bf16) (h4 : a4.IsWhole) (a5 : Memref sig .tc .vmem S14x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1x1024 .f32) (h8 : a8.IsWhole) (a9 : Memref sig .tc .vmem S1x256x1024 .f32) (h9 : a9.IsWhole) (a10 : Memref sig .tc .vmem S1x8x14 .f32) (h10 : a10.IsWhole) (hc1 : ¬ k0_cond1 i = 1#1) (hc2 : k0_cond2 i = 1#1) (x0 : Vec F S1x256x1024 .f32) (x1 : Vec F S1024x14 .bf16) (x2 : Vec F S1024x14 .bf16) (x3 : Vec F S14x1024 .bf16) (x4 : Vec F S1024x1024 .bf16) (x5 : Vec F S1024x1024 .bf16) (x6 : Vec F S1x1024 .f32) (xo : Vec F S1x8x14 .f32) :
    outL7 c i a2 h2 a3 h3 a4 h4 a5 h5 a6 h6 a7 h7 a8 h8 a9 h9 a10 h10 hc1 hc2 x0 x1 x2 x3 x4 x5 x6 xo = k0_pay1 (k0_pay2 x0) (k0_pay3 x0) (k0_pay8 x0 x1 x2 x3) (k0_pay9 x0 x1 x2 x3) (k0_pay10 x4) x5 x6 := by
  unfold outL7
  rw [View.read_writes_eq_canon _ _ _ (coverL7 c i a2 h2 a3 h3 a4 h4 a5 h5 a6 h6 a7 h7 a8 h8 a9 h9 a10 h10 hc1 hc2 x0 x1 x2 x3 x4 x5 x6 xo)]
  unfold runLater; dsimp only; sl_unfold_words
  refine (View.canon_unit_zero (S := S1x256x1024) zeros3 inb_S1x256x1024_S1x256x1024_0_0_0 _).trans ?_
  rw [load_whole a2 h2 zeros3, load_whole a3 h3 zeros2, load_whole a4 h4 zeros2, load_whole a5 h5 zeros2,
    load_whole a6 h6 zeros2, load_whole a7 h7 zeros2, load_whole a8 h8 zeros2]

end Cert.KernelIdeal.Body

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.KV.Payload.lean ====
/-
  The body's arithmetic on one tile, read entry by entry on the extended reals. The inputs' blocks are x0 (the tile's 256
  rows of 1024 features), x1 and x2 (the "absent" and "present" knowledge rows, transposed: feature by disease), x3 (the
  "present" rows, disease by feature), x4 and x5 (the two halves of the gate's weights, transposed: input feature by output
  feature) and x6 (the gate's bias as one row). A change of float format is the identity here, a product into a zero
  accumulator is the plain sum over the contracted position, and the lane maximum is the fold of max down the rows.
-/
import proofs.«156527_j86320252715156_2_alg».proof.Proof.Gen.KernelIdeal.Skeleton
import proofs.«156527_j86320252715156_2_alg».proof.Proof.LibPlainDot
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Cert.KernelIdeal Cert.KernelIdeal.Gen Idealize.ShloMosaic Idealize.ShloMosaic.ValueIdx Cert.Lib.PlainDot

/-- The factor 1/32 as the body holds it. -/
abbrev sc : EReal := Ideal.ofBits .f32 0x3D000000#32

variable (x0 : Vec Ideal S1x256x1024 .f32) (x1 x2 : Vec Ideal S1024x14 .bf16) (x3 : Vec Ideal S14x1024 .bf16)
  (x4 x5 : Vec Ideal S1024x1024 .bf16) (x6 : Vec Ideal S1x1024 .f32)

/-- Row r of the tile against column i of a transposed knowledge block. -/
def dotB (w : Vec Ideal S1024x14 .bf16) (r : Fin 256) (i : Fin 14) : EReal :=
  ∑ k : Fin 1024, (x0 (ix3 (0 : Fin 1) r k) : EReal) * (w (ix2 k i) : EReal)
/-- The probability of "present" for row r and disease i. -/
def probB (r : Fin 256) (i : Fin 14) : EReal :=
  Ideal.logistic (dotB x0 x2 r i * sc - dotB x0 x1 r i * sc)
/-- The attended row. -/
def attB (r : Fin 256) (d : Fin 1024) : EReal :=
  ∑ i : Fin 14, probB x0 x1 x2 r i * (x3 (ix2 i d) : EReal)
/-- The gate's logit. -/
def logitB (r : Fin 256) (d : Fin 1024) : EReal :=
  (∑ k : Fin 1024, (x0 (ix3 (0 : Fin 1) r k) : EReal) * (x4 (ix2 k d) : EReal))
    + (∑ k : Fin 1024, attB x0 x1 x2 x3 r k * (x5 (ix2 k d) : EReal)) + (x6 (ix2 (0 : Fin 1) d) : EReal)
/-- The gated residual row. -/
def outB (r : Fin 256) (d : Fin 1024) : EReal :=
  (x0 (ix3 (0 : Fin 1) r d) : EReal) + Ideal.logistic (logitB x0 x1 x2 x3 x4 x5 x6 r d) * attB x0 x1 x2 x3 r d
/-- The largest probability of disease i down the tile's rows. -/
def colMaxB (i : Fin 14) : EReal :=
  (Finset.univ : Finset (Fin 256)).fold max ⊥ (fun r => probB x0 x1 x2 r i)

theorem rowIdx_ix2 {R K C : ℕ} (r : Fin R) (c : Fin C) (k : Fin K) : rowIdx (ix2 r c) k = ix2 r k := by
  funext a; match a with | ⟨0, _⟩ => rfl | ⟨1, _⟩ => rfl
theorem colIdx_ix2 {R K C : ℕ} (r : Fin R) (c : Fin C) (k : Fin K) : colIdx (R := R) (ix2 r c) k = ix2 k c := by
  funext a; match a with | ⟨0, _⟩ => rfl | ⟨1, _⟩ => rfl

/-- The pattern of minus infinity is the least extended real. -/
theorem ofBits_neg_inf : Ideal.ofBits .f32 0xFF800000#32 = (⊥ : EReal) := by simp [Ideal.ofBits, Ideal.ieee]

theorem pay2_apply (r : Fin 256) (d : Fin 1024) : k0_pay2 (F := Ideal) x0 (ix2 r d) = x0 (ix3 (0 : Fin 1) r d) := by
  unfold k0_pay2
  exact shapeCast_1ab_ab_apply x0 _ r d

theorem pay3_apply (r : Fin 256) (k : Fin 1024) : k0_pay3 (F := Ideal) x0 (ix2 r k) = x0 (ix3 (0 : Fin 1) r k) := by
  unfold k0_pay3
  show k0_pay2 (F := Ideal) x0 (ix2 r k) = _
  exact pay2_apply x0 r k

theorem pay4_apply (r : Fin 256) (i : Fin 14) : k0_pay4 (F := Ideal) x0 x1 x2 (ix2 r i) = probB x0 x1 x2 r i := by
  unfold k0_pay4 probB dotB
  simp only [logistic, matmul, subf_apply, mulf_apply, broadcast_apply, Ideal.logistic_def]
  rw [matmul_zero_apply dot_S256x1024_S1024x14_S256x14_1_0_0_1_n_n rfl, matmul_zero_apply dot_S256x1024_S1024x14_S256x14_1_0_0_1_n_n rfl]
  unfold mm
  simp only [rowIdx_ix2, colIdx_ix2, pay3_apply, shapeCast_self]
  rfl

theorem lift_col (r : Fin 256) (i : Fin 14) : reduces_S256x14_S14.lift (ix1 i) r = ix2 r i := by
  funext d
  match d with
  | ⟨0, _⟩ => exact Fin.ext rfl
  | ⟨1, _⟩ => exact Fin.ext rfl

theorem pay5_apply (q : Fin 8) (i : Fin 14) : k0_pay5 (F := Ideal) x0 x1 x2 (ix2 q i) = colMaxB x0 x1 x2 i := by
  unfold k0_pay5 colMaxB
  dsimp only
  rw [broadcastTo_1b_ab_apply, shapeCast_self, shapeCast_a_1a_apply]
  refine (Ideal.multiReduction_maximumf_single _ _ reduces_S256x14_S14 _ _ (ix1 i)).trans ?_
  rw [show FloatOps.ofBits (F := Ideal) .f32 0xFF800000#32 = (⊥ : EReal) from ofBits_neg_inf]
  refine Finset.fold_congr fun r _ => ?_
  exact (congrArg (k0_pay4 (F := Ideal) x0 x1 x2) (lift_col r i)).trans (pay4_apply x0 x1 x2 r i)

theorem pay6_apply (u : Fin 1) (q : Fin 8) (i : Fin 14) : k0_pay6 (F := Ideal) x0 x1 x2 (ix3 u q i) = colMaxB x0 x1 x2 i := by
  unfold k0_pay6
  rw [shapeCast_ab_1ab_apply, pay5_apply]

theorem pay7_apply (xo : Vec Ideal S1x8x14 .f32) (u : Fin 1) (q : Fin 8) (i : Fin 14) :
    k0_pay7 (F := Ideal) x0 x1 x2 xo (ix3 u q i) = max (xo (ix3 (0 : Fin 1) q i) : EReal) (colMaxB x0 x1 x2 i) := by
  unfold k0_pay7
  rw [shapeCast_ab_1ab_apply, maximumf_apply, shapeCast_1ab_ab_apply, pay5_apply]

theorem pay8_apply (r : Fin 256) (d : Fin 1024) : k0_pay8 (F := Ideal) x0 x1 x2 x3 (ix2 r d) = attB x0 x1 x2 x3 r d := by
  unfold k0_pay8 attB
  simp only [matmul]
  rw [matmul_zero_apply dot_S256x14_S14x1024_S256x1024_1_0_0_1_n_n rfl]
  unfold mm
  simp only [rowIdx_ix2, colIdx_ix2, shapeCast_self]
  refine Finset.sum_congr rfl fun i _ => ?_
  show k0_pay4 (F := Ideal) x0 x1 x2 (ix2 r i) * _ = _
  rw [pay4_apply]

theorem pay1_apply (u : Fin 1) (r : Fin 256) (d : Fin 1024) :
    k0_pay1 (F := Ideal) (k0_pay2 x0) (k0_pay3 x0) (k0_pay8 x0 x1 x2 x3) (k0_pay9 x0 x1 x2 x3) (k0_pay10 x4) x5 x6 (ix3 u r d)
      = outB x0 x1 x2 x3 x4 x5 x6 r d := by
  unfold k0_pay1 outB logitB
  rw [shapeCast_ab_1ab_apply]
  simp only [addf_apply, mulf_apply, logistic, matmul, Ideal.logistic_def]
  rw [matmul_zero_apply dot_S256x1024_S1024x1024_S256x1024_1_0_0_1_n_n rfl, matmul_zero_apply dot_S256x1024_S1024x1024_S256x1024_1_0_0_1_n_n rfl,
    broadcastTo_1b_ab_apply, shapeCast_self, shapeCast_self, pay2_apply, pay8_apply]
  unfold mm k0_pay10 k0_pay9
  simp only [rowIdx_ix2, colIdx_ix2, shapeCast_self, pay3_apply]
  refine congrArg (fun t => (x0 (ix3 (0 : Fin 1) r d) : EReal) + Ideal.logistic (_ + t + _) * _) ?_
  refine Finset.sum_congr rfl fun k _ => ?_
  show k0_pay8 (F := Ideal) x0 x1 x2 x3 (ix2 r k) * _ = _
  rw [pay8_apply]

end Cert.KernelIdeal.Pay

end
-- ==== Proof.Spec.lean ====
/-
  What both programs compute, as plain functions of the four argument arrays read by coordinates:
  z : [32, 1024, 1024] (batch, patch, feature), K : [14, 2, 1024] (disease, state, feature),
  W : [1024, 2048] (output feature, input feature of the gate layer), g : [1024] (the gate's bias).

  For a patch (b, s) and a disease i the two scores are the contractions of the patch's row of z against the two
  state rows of K, scaled by 1/32; the probability of the "present" state is the logistic function of the
  difference of the two scores; the attended row is the probabilities' combination of the "present" rows of K;
  the gate's logit contracts the patch's row against the left half of W and the attended row against the right
  half, plus the bias; the output is z + logistic(logit) * attended; and the per-disease summary is the largest
  probability over the 1024 patches of a batch entry.
-/
import Idealize.ShloMosaic.PureOps.Ideal
import Idealize.ShloMosaic.Lib.ValueIdx

noncomputable section

open scoped BigOperators

namespace Cert.Spec

open Idealize.ShloMosaic

/-- The factor 1/32, as the binary32 pattern of 2^-5. -/
def scale : EReal := Ideal.ofBits .f32 0x3D000000#32

/-- Column k of the left half of the gate's weights. -/
def lo (k : Fin 1024) : Fin 2048 := ⟨k.val, by have := k.isLt; omega⟩
/-- Column k of the right half of the gate's weights. -/
def hi (k : Fin 1024) : Fin 2048 := ⟨1024 + k.val, by have := k.isLt; omega⟩

/-! ## The argument arrays read by coordinates -/

/-- The feature array [32, 1024, 1024] by (batch entry, patch, feature). -/
def zOf {α : Type} (x : (⟨3, ![32, 1024, 1024]⟩ : Shape).Idx → α) : Fin 32 → Fin 1024 → Fin 1024 → α :=
  fun b s k => x (ValueIdx.ix3 b s k)
/-- The knowledge array [14, 2, 1024] by (disease, state, feature). -/
def kOf {α : Type} (x : (⟨3, ![14, 2, 1024]⟩ : Shape).Idx → α) : Fin 14 → Fin 2 → Fin 1024 → α :=
  fun i j k => x (ValueIdx.ix3 i j k)
/-- The gate's weights [1024, 2048] by (output feature, input feature). -/
def wOf {α : Type} (x : (⟨2, ![1024, 2048]⟩ : Shape).Idx → α) : Fin 1024 → Fin 2048 → α :=
  fun d k => x (ValueIdx.ix2 d k)
/-- The gate's bias [1024]. -/
def gOf {α : Type} (x : (⟨1, ![1024]⟩ : Shape).Idx → α) : Fin 1024 → α :=
  fun d => x (ValueIdx.ix1 d)

variable (z : Fin 32 → Fin 1024 → Fin 1024 → EReal) (K : Fin 14 → Fin 2 → Fin 1024 → EReal)
  (W : Fin 1024 → Fin 2048 → EReal) (g : Fin 1024 → EReal)

/-- The scaled score of patch (b, s) against state j of disease i. -/
def score (b : Fin 32) (s : Fin 1024) (i : Fin 14) (j : Fin 2) : EReal :=
  (∑ k : Fin 1024, z b s k * K i j k) * scale

/-- The probability that disease i is present at patch (b, s): the two-way softmax's second entry, written as the
    logistic function of the difference of the scores. -/
def prob (b : Fin 32) (s : Fin 1024) (i : Fin 14) : EReal :=
  Ideal.logistic (score z K b s i 1 - score z K b s i 0)

/-- The attended knowledge row of patch (b, s). -/
def attend (b : Fin 32) (s : Fin 1024) (d : Fin 1024) : EReal :=
  ∑ i : Fin 14, prob z K b s i * K i 1 d

/-- The gate's logit. -/
def gateLogit (b : Fin 32) (s : Fin 1024) (d : Fin 1024) : EReal :=
  (∑ k : Fin 1024, z b s k * W d (lo k)) + (∑ k : Fin 1024, attend z K b s k * W d (hi k)) + g d

/-- The gated residual output. -/
def zout (b : Fin 32) (s : Fin 1024) (d : Fin 1024) : EReal :=
  z b s d + Ideal.logistic (gateLogit z K W g b s d) * attend z K b s d

/-- The largest probability of disease i over the patches of batch entry b. -/
def mlc (b : Fin 32) (i : Fin 14) : EReal :=
  (Finset.univ : Finset (Fin 1024)).fold max ⊥ (fun s => prob z K b s i)

end Cert.Spec

end
-- ==== Proof.KV.Arrays.lean ====
/-
  The arrays the pipeline's windows stage, as the host lines before the launch leave them, read at an index as entries of
  the argument arrays: the two transposed knowledge blocks hold K i j k at (k, i); the "present" block holds K i 1 d at
  (i, d); the two transposed halves of the gate's weights hold W d k and W d (1024 + k) at (k, d); the bias row holds g d
  at (0, d). A change of float format is the identity on the extended reals.
-/
import proofs.«156527_j86320252715156_2_alg».proof.Proof.Gen.KernelIdeal.Frame
import proofs.«156527_j86320252715156_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.Arr

open Cert.KernelIdeal Cert.KernelIdeal.Gen
open Idealize.ShloMosaic Idealize.ShloMosaic.TcCoe Idealize.SL.Sem Idealize.ShloMosaic.ValueIdx Idealize.ShloMosaic.StableHlo

/-- An [a, 1, b] array cast to [a, b] reads at (i, j) the operand at (i, 0, j). -/
theorem dropMid_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- State j of the knowledge array, cut out, flattened, narrowed and transposed: (k, i) holds K i j k. -/
theorem knowT_apply (A1 : S14x2x1024.Idx → EReal) (o : ℕ) (hs : S14x2x1024.Slices ![0, o, 0] S14x1x1024)
    (j : Fin 2) (hj : j.val = o) (k : Fin 1024) (i : Fin 14) :
    transpose S1024x14 [1, 0] (truncf (F := Ideal) .bf16 (shapeCast S14x1024 (extractStridedSlice S14x1x1024 ![0, o, 0] A1 hs)
      shapeCasts_S14x1x1024_S14x1024) bitsLt_bf16_f32) transposes_S14x1024_S1024x14_1_0 (ix2 k i) = A1 (ix3 i j k) := by
  rw [transpose_ix2_apply, truncf_apply, dropMid_apply, slice3_axis1_apply o A1 hs i (0 : Fin 1) k j (by rw [hj]; rfl)]

/-- State j of the knowledge array, cut out, flattened and narrowed: (i, d) holds K i j d. -/
theorem know_apply (A1 : S14x2x1024.Idx → EReal) (o : ℕ) (hs : S14x2x1024.Slices ![0, o, 0] S14x1x1024)
    (j : Fin 2) (hj : j.val = o) (i : Fin 14) (d : Fin 1024) :
    truncf (F := Ideal) .bf16 (shapeCast S14x1024 (extractStridedSlice S14x1x1024 ![0, o, 0] A1 hs)
      shapeCasts_S14x1x1024_S14x1024) bitsLt_bf16_f32 (ix2 i d) = A1 (ix3 i j d) := by
  rw [truncf_apply, dropMid_apply, slice3_axis1_apply o A1 hs i (0 : Fin 1) d j (by rw [hj]; rfl)]

/-- A half of the gate's weights from column o, transposed and narrowed: (k, d) holds W d (o + k). -/
theorem gateT_apply (A2 : S1024x2048.Idx → EReal) (o : ℕ) (hs : S1024x2048.Slices ![0, o] S1024x1024)
    (k : Fin 1024) (d : Fin 1024) (kk : Fin 2048) (hk : kk.val = o + k.val) :
    truncf (F := Ideal) .bf16 (transpose S1024x1024 [1, 0] (extractStridedSlice S1024x1024 ![0, o] A2 hs)
      transposes_S1024x1024_S1024x1024_1_0) bitsLt_bf16_f32 (ix2 k d) = A2 (ix2 d kk) := by
  rw [truncf_apply, transpose_ix2_apply, slice2_axis1_apply o A2 hs d k kk hk]

variable (m : (ℓ : Loc nD τ sig) → Buf (Elt Ideal) ℓ)

theorem V5_apply (c : Dev nD) (k : Fin 1024) (i : Fin 14) :
    (V m c main_v5 : S1024x14.Idx → EReal) (ix2 k i)
      = (m ((c : Thread nD τ).loc main_arg1) : S14x2x1024.Idx → EReal) (ix3 i (0 : Fin 2) k) := by
  have e : (V m c main_v5 : S1024x14.Idx → EReal)
      = transpose S1024x14 [1, 0] (truncf (F := Ideal) .bf16 (shapeCast S14x1024 (extractStridedSlice S14x1x1024 ![0, 0, 0]
          (m ((c : Thread nD τ).loc main_arg1)) slices_S14x2x1024_S14x1x1024_0_0_0) shapeCasts_S14x1x1024_S14x1024) bitsLt_bf16_f32)
          transposes_S14x1024_S1024x14_1_0 := by
    show StableHlo.after hostOps0 (fun b => m (c, b)) (Proc.devRef .tc main_v5) = _; after_results <;> rfl
  rw [e]; exact knowT_apply _ 0 _ 0 rfl k i

theorem V7_apply (c : Dev nD) (k : Fin 1024) (i : Fin 14) :
    (V m c main_v7 : S1024x14.Idx → EReal) (ix2 k i)
      = (m ((c : Thread nD τ).loc main_arg1) : S14x2x1024.Idx → EReal) (ix3 i (1 : Fin 2) k) := by
  have e : (V m c main_v7 : S1024x14.Idx → EReal)
      = transpose S1024x14 [1, 0] (truncf (F := Ideal) .bf16 (shapeCast S14x1024 (extractStridedSlice S14x1x1024 ![0, 1, 0]
          (m ((c : Thread nD τ).loc main_arg1)) slices_S14x2x1024_S14x1x1024_0_1_0) shapeCasts_S14x1x1024_S14x1024) bitsLt_bf16_f32)
          transposes_S14x1024_S1024x14_1_0 := by
    show StableHlo.after hostOps0 (fun b => m (c, b)) (Proc.devRef .tc main_v7) = _; after_results <;> rfl
  rw [e]; exact knowT_apply _ 1 _ 1 rfl k i

theorem V8_apply (c : Dev nD) (i : Fin 14) (d : Fin 1024) :
    (V m c main_v8 : S14x1024.Idx → EReal) (ix2 i d)
      = (m ((c : Thread nD τ).loc main_arg1) : S14x2x1024.Idx → EReal) (ix3 i (1 : Fin 2) d) := by
  have e : (V m c main_v8 : S14x1024.Idx → EReal)
      = truncf (F := Ideal) .bf16 (shapeCast S14x1024 (extractStridedSlice S14x1x1024 ![0, 1, 0]
          (m ((c : Thread nD τ).loc main_arg1)) slices_S14x2x1024_S14x1x1024_0_1_0) shapeCasts_S14x1x1024_S14x1024) bitsLt_bf16_f32 := by
    show StableHlo.after hostOps0 (fun b => m (c, b)) (Proc.devRef .tc main_v8) = _; after_results <;> rfl
  rw [e]; exact know_apply _ 1 _ 1 rfl i d

theorem V12_apply (c : Dev nD) (k : Fin 1024) (d : Fin 1024) :
    (V m c main_v12 : S1024x1024.Idx → EReal) (ix2 k d)
      = (m ((c : Thread nD τ).loc main_arg2) : S1024x2048.Idx → EReal) (ix2 d (Cert.Spec.lo k)) := by
  have e : (V m c main_v12 : S1024x1024.Idx → EReal)
      = truncf (F := Ideal) .bf16 (transpose S1024x1024 [1, 0] (extractStridedSlice S1024x1024 ![0, 0]
          (m ((c : Thread nD τ).loc main_arg2)) slices_S1024x2048_S1024x1024_0_0) transposes_S1024x1024_S1024x1024_1_0) bitsLt_bf16_f32 := by
    show StableHlo.after hostOps0 (fun b => m (c, b)) (Proc.devRef .tc main_v12) = _; after_results <;> rfl
  rw [e]; exact gateT_apply _ 0 _ k d (Cert.Spec.lo k) (Nat.zero_add _).symm

theorem V14_apply (c : Dev nD) (k : Fin 1024) (d : Fin 1024) :
    (V m c main_v14 : S1024x1024.Idx → EReal) (ix2 k d)
      = (m ((c : Thread nD τ).loc main_arg2) : S1024x2048.Idx → EReal) (ix2 d (Cert.Spec.hi k)) := by
  have e : (V m c main_v14 : S1024x1024.Idx → EReal)
      = truncf (F := Ideal) .bf16 (transpose S1024x1024 [1, 0] (extractStridedSlice S1024x1024 ![0, 1024]
          (m ((c : Thread nD τ).loc main_arg2)) slices_S1024x2048_S1024x1024_0_1024) transposes_S1024x1024_S1024x1024_1_0) bitsLt_bf16_f32 := by
    show StableHlo.after hostOps0 (fun b => m (c, b)) (Proc.devRef .tc main_v14) = _; after_results <;> rfl
  rw [e]; exact gateT_apply _ 1024 _ k d (Cert.Spec.hi k) rfl

theorem V15_apply (c : Dev nD) (d : Fin 1024) :
    (V m c main_v15 : S1x1024.Idx → EReal) (ix2 (0 : Fin 1) d)
      = (m ((c : Thread nD τ).loc main_arg3) : S1024.Idx → EReal) (ix1 d) := by
  have e : (V m c main_v15 : S1x1024.Idx → EReal)
      = shapeCast S1x1024 (m ((c : Thread nD τ).loc main_arg3)) shapeCasts_S1024_S1x1024 := by
    show StableHlo.after hostOps0 (fun b => m (c, b)) (Proc.devRef .tc main_v15) = _; after_results <;> rfl
  rw [e]; exact shapeCast_a_1a_apply _ _ 0 d

end Cert.KernelIdeal.Arr

end
-- ==== Proof.KV.Tiles.lean ====
/-
  The largest of 1024 values, taken tile by tile: with the 1024 positions cut into four tiles of 256, the running maximum
  that starts at the first tile's maximum and joins each later tile's maximum to it ends at the maximum over all positions.
  Maxima are folds of max from the least extended real.
-/
import Mathlib.Data.EReal.Basic
import Mathlib.Data.Finset.Fold
import Mathlib.Data.Fintype.Basic
import Mathlib.Data.Fintype.Fin
import Mathlib.Order.Fin.Basic
import Mathlib.Tactic

namespace Cert.Spec.Tiles

/-- Position r of tile j among the 1024 positions. -/
def patch (j : Fin 4) (r : Fin 256) : Fin 1024 := ⟨256 * j.val + r.val, by have := j.isLt; have := r.isLt; omega⟩

/-- The maximum over tile j. -/
noncomputable def tileMax (f : Fin 1024 → EReal) (j : Fin 4) : EReal :=
  (Finset.univ : Finset (Fin 256)).fold max ⊥ (fun r => f (patch j r))

/-- The running maximum after tile j. -/
noncomputable def runMax (f : Fin 1024 → EReal) : (j : ℕ) → j < 4 → EReal
  | 0, h => tileMax f ⟨0, h⟩
  | j + 1, h => max (runMax f j (Nat.lt_of_succ_lt h)) (tileMax f ⟨j + 1, h⟩)

theorem tileMax_le_all (f : Fin 1024 → EReal) (j : Fin 4) :
    tileMax f j ≤ (Finset.univ : Finset (Fin 1024)).fold max ⊥ f :=
  (Finset.fold_max_le _).mpr ⟨bot_le, fun r _ => (Finset.le_fold_max _).mpr (Or.inr ⟨patch j r, Finset.mem_univ _, le_rfl⟩)⟩

theorem le_tileMax (f : Fin 1024 → EReal) (j : Fin 4) (r : Fin 256) : f (patch j r) ≤ tileMax f j :=
  (Finset.le_fold_max _).mpr (Or.inr ⟨r, Finset.mem_univ _, le_rfl⟩)

/-- After the fourth tile the running maximum is the maximum over all 1024 positions. -/
theorem runMax_last (f : Fin 1024 → EReal) :
    runMax f 3 (by norm_num) = (Finset.univ : Finset (Fin 1024)).fold max ⊥ f := by
  have e : runMax f 3 (by norm_num) = max (max (max (tileMax f 0) (tileMax f 1)) (tileMax f 2)) (tileMax f 3) := rfl
  rw [e]
  apply le_antisymm
  · exact max_le (max_le (max_le (tileMax_le_all f 0) (tileMax_le_all f 1)) (tileMax_le_all f 2)) (tileMax_le_all f 3)
  · refine (Finset.fold_max_le _).mpr ⟨bot_le, fun s _ => ?_⟩
    have hs := s.isLt
    have hj : s.val / 256 < 4 := by omega
    have hr : s.val % 256 < 256 := Nat.mod_lt _ (by norm_num)
    have hp : s = patch ⟨s.val / 256, hj⟩ ⟨s.val % 256, hr⟩ := Fin.ext (by show s.val = 256 * (s.val / 256) + s.val % 256; omega)
    have h1 : f s ≤ tileMax f ⟨s.val / 256, hj⟩ := by
      have := le_tileMax f ⟨s.val / 256, hj⟩ ⟨s.val % 256, hr⟩
      rwa [← hp] at this
    refine h1.trans ?_
    have h4 : s.val / 256 = 0 ∨ s.val / 256 = 1 ∨ s.val / 256 = 2 ∨ s.val / 256 = 3 := by omega
    rcases h4 with h | h | h | h
    · have : (⟨s.val / 256, hj⟩ : Fin 4) = 0 := Fin.ext h
      rw [this]; exact le_max_of_le_left (le_max_of_le_left (le_max_left _ _))
    · have : (⟨s.val / 256, hj⟩ : Fin 4) = 1 := Fin.ext h
      rw [this]; exact le_max_of_le_left (le_max_of_le_left (le_max_right _ _))
    · have : (⟨s.val / 256, hj⟩ : Fin 4) = 2 := Fin.ext h
      rw [this]; exact le_max_of_le_left (le_max_right _ _)
    · have : (⟨s.val / 256, hj⟩ : Fin 4) = 3 := Fin.ext h
      rw [this]; exact le_max_right _ _

/-- The four tiles' maxima joined in order are the maximum over all 1024 positions. -/
theorem tiles_all (f : Fin 1024 → EReal) :
    max (max (max (tileMax f 0) (tileMax f 1)) (tileMax f 2)) (tileMax f 3)
      = (Finset.univ : Finset (Fin 1024)).fold max ⊥ f :=
  runMax_last f

end Cert.Spec.Tiles
-- ==== Proof.KV.Points.lean ====
/-
  One grid point of the pipeline, read on the extended reals. Point t works on batch entry t / 4 and on the tile of patches
  256 (t % 4) … 256 (t % 4) + 255: the block of the feature array it is handed holds those rows, the other input blocks are
  whole arrays. So the gated rows the point stores are the specification's output on its tile, the column maxima it computes
  are the largest probabilities over its tile, and after the fourth tile of a batch entry the summary block holds the largest
  probability over all 1024 patches.
-/
import proofs.«156527_j86320252715156_2_alg».proof.Proof.KI.Pieces
import proofs.«156527_j86320252715156_2_alg».proof.Proof.KV.Payload
import proofs.«156527_j86320252715156_2_alg».proof.Proof.KV.Arrays
import proofs.«156527_j86320252715156_2_alg».proof.Proof.KV.Tiles
import proofs.«156527_j86320252715156_2_alg».proof.Proof.Spec

set_option maxRecDepth 16384

noncomputable section

open scoped BigOperators

namespace Cert.KernelIdeal.Val

open Cert.KernelIdeal Cert.KernelIdeal.Gen Cert.KernelIdeal.Body Cert.KernelIdeal.Pay Cert.KernelIdeal.Arr
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The argument arrays by coordinates. -/
abbrev Zc (c : Dev nD) : Fin 32 → Fin 1024 → Fin 1024 → EReal :=
  Cert.Spec.zOf (m ((c : Thread nD τ).loc main_arg0) : S32x1024x1024.Idx → EReal)
abbrev Kc (c : Dev nD) : Fin 14 → Fin 2 → Fin 1024 → EReal :=
  Cert.Spec.kOf (m ((c : Thread nD τ).loc main_arg1) : S14x2x1024.Idx → EReal)
abbrev Wc (c : Dev nD) : Fin 1024 → Fin 2048 → EReal :=
  Cert.Spec.wOf (m ((c : Thread nD τ).loc main_arg2) : S1024x2048.Idx → EReal)
abbrev Gc (c : Dev nD) : Fin 1024 → EReal :=
  Cert.Spec.gOf (m ((c : Thread nD τ).loc main_arg3) : S1024.Idx → EReal)

theorem N_lt (t : Fin cfg0.N) : t.val < 128 := lt_of_lt_of_eq t.isLt (show cfg0.N = 128 from N_0)

/-- The batch entry of point t. -/
def bOf (t : Fin cfg0.N) : Fin 32 := ⟨t.val / 4, by have := N_lt t; omega⟩
/-- Row r of point t's tile among the 1024 patches. -/
def sOf (t : Fin cfg0.N) (r : Fin 256) : Fin 1024 := ⟨t.val % 4 * 256 + r.val, by have := r.isLt; omega⟩

/-- The windows' block indices at every grid point, decided over the grid. -/
theorem idx_facts : ∀ t : Fin cfg0.N,
    (win0_0.index t (0 : Fin 3) = t.val / 4 ∧ win0_0.index t (1 : Fin 3) = t.val % 4 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = 0 ∧ win0_8.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## The input blocks at a point -/

theorem blk0 (c : Dev nD) (t : Fin cfg0.N) (u : Fin 1) (r : Fin 256) (k : Fin 1024) :
    (iblk m c 0 t (ix3 u r k) : EReal) = Zc m c (bOf t) (sOf t r) k := by
  obtain ⟨⟨e0, e1, e2⟩, -⟩ := idx_facts t
  show V m c main_arg0 (((cfg0.win 0).blk t).view.emb (ix3 u r k)) = _
  rw [V_main_arg0]
  refine congrArg (m ((c : Thread nD τ).loc main_arg0)) ?_
  funext a; apply Fin.ext
  have hu : u.val = 0 := by have := u.isLt; omega
  match a with
  | ⟨0, _⟩ => show win0_0.index t (0 : Fin 3) * 1 + 1 * u.val = t.val / 4; omega
  | ⟨1, _⟩ => show win0_0.index t (1 : Fin 3) * 256 + 1 * r.val = t.val % 4 * 256 + r.val; omega
  | ⟨2, _⟩ => show win0_0.index t (2 : Fin 3) * 1024 + 1 * k.val = k.val; omega

theorem blk1 (c : Dev nD) (t : Fin cfg0.N) (k : Fin 1024) (i : Fin 14) :
    (iblk m c 1 t (ix2 k i) : EReal) = Kc m c i 0 k := by
  obtain ⟨-, -, -, ⟨e0, e1⟩, -⟩ := idx_facts t
  refine Eq.trans ?_ (V5_apply m c k i)
  show V m c main_v5 (((cfg0.win 1).blk t).view.emb (ix2 k i)) = _
  refine congrArg (V m c main_v5) ?_
  funext a; apply Fin.ext
  match a with
  | ⟨0, _⟩ => show win0_1.index t (0 : Fin 2) * 1024 + 1 * k.val = k.val; omega
  | ⟨1, _⟩ => show win0_1.index t (1 : Fin 2) * 14 + 1 * i.val = i.val; omega

theorem blk2 (c : Dev nD) (t : Fin cfg0.N) (k : Fin 1024) (i : Fin 14) :
    (iblk m c 2 t (ix2 k i) : EReal) = Kc m c i 1 k := by
  obtain ⟨-, -, -, -, ⟨e0, e1⟩, -⟩ := idx_facts t
  refine Eq.trans ?_ (V7_apply m c k i)
  show V m c main_v7 (((cfg0.win 2).blk t).view.emb (ix2 k i)) = _
  refine congrArg (V m c main_v7) ?_
  funext a; apply Fin.ext
  match a with
  | ⟨0, _⟩ => show win0_2.index t (0 : Fin 2) * 1024 + 1 * k.val = k.val; omega
  | ⟨1, _⟩ => show win0_2.index t (1 : Fin 2) * 14 + 1 * i.val = i.val; omega

theorem blk3 (c : Dev nD) (t : Fin cfg0.N) (i : Fin 14) (d : Fin 1024) :
    (iblk m c 3 t (ix2 i d) : EReal) = Kc m c i 1 d := by
  obtain ⟨-, -, -, -, -, ⟨e0, e1⟩, -⟩ := idx_facts t
  refine Eq.trans ?_ (V8_apply m c i d)
  show V m c main_v8 (((cfg0.win 3).blk t).view.emb (ix2 i d)) = _
  refine congrArg (V m c main_v8) ?_
  funext a; apply Fin.ext
  match a with
  | ⟨0, _⟩ => show win0_3.index t (0 : Fin 2) * 14 + 1 * i.val = i.val; omega
  | ⟨1, _⟩ => show win0_3.index t (1 : Fin 2) * 1024 + 1 * d.val = d.val; omega

theorem blk4 (c : Dev nD) (t : Fin cfg0.N) (k : Fin 1024) (d : Fin 1024) :
    (iblk m c 4 t (ix2 k d) : EReal) = Wc m c d (Cert.Spec.lo k) := by
  obtain ⟨-, -, -, -, -, -, ⟨e0, e1⟩, -⟩ := idx_facts t
  refine Eq.trans ?_ (V12_apply m c k d)
  show V m c main_v12 (((cfg0.win 4).blk t).view.emb (ix2 k d)) = _
  refine congrArg (V m c main_v12) ?_
  funext a; apply Fin.ext
  match a with
  | ⟨0, _⟩ => show win0_4.index t (0 : Fin 2) * 1024 + 1 * k.val = k.val; omega
  | ⟨1, _⟩ => show win0_4.index t (1 : Fin 2) * 1024 + 1 * d.val = d.val; omega

theorem blk5 (c : Dev nD) (t : Fin cfg0.N) (k : Fin 1024) (d : Fin 1024) :
    (iblk m c 5 t (ix2 k d) : EReal) = Wc m c d (Cert.Spec.hi k) := by
  obtain ⟨-, -, -, -, -, -, -, ⟨e0, e1⟩, -⟩ := idx_facts t
  refine Eq.trans ?_ (V14_apply m c k d)
  show V m c main_v14 (((cfg0.win 5).blk t).view.emb (ix2 k d)) = _
  refine congrArg (V m c main_v14) ?_
  funext a; apply Fin.ext
  match a with
  | ⟨0, _⟩ => show win0_5.index t (0 : Fin 2) * 1024 + 1 * k.val = k.val; omega
  | ⟨1, _⟩ => show win0_5.index t (1 : Fin 2) * 1024 + 1 * d.val = d.val; omega

theorem blk6 (c : Dev nD) (t : Fin cfg0.N) (d : Fin 1024) :
    (iblk m c 6 t (ix2 (0 : Fin 1) d) : EReal) = Gc m c d := by
  obtain ⟨-, -, -, -, -, -, -, -, ⟨e0, e1⟩⟩ := idx_facts t
  refine Eq.trans ?_ (V15_apply m c d)
  show V m c main_v15 (((cfg0.win 6).blk t).view.emb (ix2 (0 : Fin 1) d)) = _
  refine congrArg (V m c main_v15) ?_
  funext a; apply Fin.ext
  match a with
  | ⟨0, _⟩ => show win0_6.index t (0 : Fin 2) * 1 + 1 * 0 = 0; omega
  | ⟨1, _⟩ => show win0_6.index t (1 : Fin 2) * 1024 + 1 * d.val = d.val; omega

/-! ## The body's values at a point -/

theorem prob_point (c : Dev nD) (t : Fin cfg0.N) (r : Fin 256) (i : Fin 14) :
    probB (iblk m c 0 t) (iblk m c 1 t) (iblk m c 2 t) r i = Cert.Spec.prob (Zc m c) (Kc m c) (bOf t) (sOf t r) i := by
  unfold probB dotB Cert.Spec.prob Cert.Spec.score
  simp only [blk0, blk1, blk2]
  rfl

theorem att_point (c : Dev nD) (t : Fin cfg0.N) (r : Fin 256) (d : Fin 1024) :
    attB (iblk m c 0 t) (iblk m c 1 t) (iblk m c 2 t) (iblk m c 3 t) r d
      = Cert.Spec.attend (Zc m c) (Kc m c) (bOf t) (sOf t r) d := by
  unfold attB Cert.Spec.attend
  simp only [prob_point, blk3]

theorem out_point (c : Dev nD) (t : Fin cfg0.N) (r : Fin 256) (d : Fin 1024) :
    outB (iblk m c 0 t) (iblk m c 1 t) (iblk m c 2 t) (iblk m c 3 t) (iblk m c 4 t) (iblk m c 5 t) (iblk m c 6 t) r d
      = Cert.Spec.zout (Zc m c) (Kc m c) (Wc m c) (Gc m c) (bOf t) (sOf t r) d := by
  unfold outB logitB Cert.Spec.zout Cert.Spec.gateLogit
  simp only [att_point, blk0, blk4, blk5, blk6]

theorem colMax_point (c : Dev nD) (t : Fin cfg0.N) (i : Fin 14) :
    colMaxB (iblk m c 0 t) (iblk m c 1 t) (iblk m c 2 t) i
      = Cert.Spec.Tiles.tileMax (fun s => Cert.Spec.prob (Zc m c) (Kc m c) (bOf t) s i) ⟨t.val % 4, Nat.mod_lt _ (by norm_num)⟩ := by
  unfold colMaxB Cert.Spec.Tiles.tileMax
  refine Finset.fold_congr fun r _ => ?_
  rw [prob_point]
  refine congrArg (fun s => Cert.Spec.prob (Zc m c) (Kc m c) (bOf t) s i) (Fin.ext ?_)
  show t.val % 4 * 256 + r.val = 256 * (t.val % 4) + r.val
  omega

/-- The gated rows point t stores are the specification's output on its tile. -/
theorem rows_point (c : Dev nD) (t : Fin cfg0.N) (u : Fin 1) (r : Fin 256) (d : Fin 1024) :
    (rowsAt m c t (ix3 u r d) : EReal) = Cert.Spec.zout (Zc m c) (Kc m c) (Wc m c) (Gc m c) (bOf t) (sOf t r) d := by
  unfold rowsAt
  split
  · rw [outF7_eq, pay1_apply, out_point]
  · rw [outL7_eq, pay1_apply, out_point]

end Cert.KernelIdeal.Val

end
-- ==== Proof.KV.Final.lean ====
/-
  The two output arrays after the launch. Every block of the gated rows' array is written back by the point that computed it,
  and the blocks tile the array, so the array ends at the specification's output everywhere. The summary array's block for a
  batch entry is written back after the entry's fourth tile, when it holds the largest probability over all of the entry's
  patches in each of its eight rows; the host then keeps row 0.
-/
import proofs.«156527_j86320252715156_2_alg».proof.Proof.KV.Points

set_option maxRecDepth 16384

noncomputable section

open scoped BigOperators

namespace Cert.KernelIdeal.Val

open Cert.KernelIdeal Cert.KernelIdeal.Gen Cert.KernelIdeal.Body Cert.KernelIdeal.Pay Cert.KernelIdeal.Arr
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-! ## The summary block along the tiles of a batch entry -/

theorem acc_first (c : Dev nD) (n : ℕ) (hn : n < cfg0.N) (h0 : n % 4 = 0) (u : Fin 1) (q : Fin 8) (i : Fin 14) :
    (accAt m c n hn (ix3 u q i) : EReal) = colMaxB (iblk m c 0 ⟨n, hn⟩) (iblk m c 1 ⟨n, hn⟩) (iblk m c 2 ⟨n, hn⟩) i := by
  refine (congrFun (accAt_first m c ⟨n, hn⟩ h0) _).trans ?_
  rw [outF8_eq, pay6_apply]

theorem acc_later (c : Dev nD) (n : ℕ) (hn : n + 1 < cfg0.N) (h0 : ¬ (n + 1) % 4 = 0) (u : Fin 1) (q : Fin 8) (i : Fin 14) :
    (accAt m c (n + 1) hn (ix3 u q i) : EReal)
      = max (accAt m c n (Nat.lt_of_succ_lt hn) (ix3 (0 : Fin 1) q i) : EReal) (colMaxB (iblk m c 0 ⟨n + 1, hn⟩) (iblk m c 1 ⟨n + 1, hn⟩) (iblk m c 2 ⟨n + 1, hn⟩) i) := by
  refine (congrFun (accAt_later m c ⟨n + 1, hn⟩ h0) _).trans ?_
  rw [outL8_eq, pay7_apply]
  rfl

theorem colMax_tile (c : Dev nD) (n j : ℕ) (hn : n + j < cfg0.N) (h0 : n % 4 = 0) (hj : j < 4) (b : Fin 32) (hb : b.val = n / 4)
    (i : Fin 14) :
    colMaxB (iblk m c 0 ⟨n + j, hn⟩) (iblk m c 1 ⟨n + j, hn⟩) (iblk m c 2 ⟨n + j, hn⟩) i
      = Cert.Spec.Tiles.tileMax (fun s => Cert.Spec.prob (Zc m c) (Kc m c) b s i) ⟨j, hj⟩ := by
  refine (colMax_point m c ⟨n + j, hn⟩ i).trans ?_
  have e1 : bOf ⟨n + j, hn⟩ = b := Fin.ext (by show (n + j) / 4 = b.val; omega)
  have e2 : (⟨(⟨n + j, hn⟩ : Fin cfg0.N).val % 4, Nat.mod_lt _ (by norm_num)⟩ : Fin 4) = ⟨j, hj⟩ :=
    Fin.ext (by show (n + j) % 4 = j; omega)
  rw [e1]
  exact congrArg _ e2

/-- After the fourth tile of a batch entry every row of the summary block holds, for each disease, the largest probability
    over the entry's 1024 patches. -/
theorem acc_flush (c : Dev nD) (t : Fin cfg0.N) (h3 : t.val % 4 = 3) (u : Fin 1) (q : Fin 8) (i : Fin 14) :
    (accAt m c t.val t.isLt (ix3 u q i) : EReal) = Cert.Spec.mlc (Zc m c) (Kc m c) (bOf t) i := by
  obtain ⟨tv, ht⟩ := t
  have h3' : tv % 4 = 3 := h3
  obtain ⟨n, rfl⟩ : ∃ n, tv = n + 3 := ⟨tv - 3, by omega⟩
  have h0 : n % 4 = 0 := by omega
  have hb : (bOf ⟨n + 3, ht⟩).val = n / 4 := by show (n + 3) / 4 = n / 4; omega
  show (accAt m c (n + 2 + 1) ht (ix3 u q i) : EReal) = _
  rw [acc_later m c (n + 2) ht (by omega), acc_later m c (n + 1) _ (by omega), acc_later m c n _ (by omega),
    acc_first m c n _ h0]
  have hn0 : n < cfg0.N := Nat.lt_of_succ_lt (Nat.lt_of_succ_lt (Nat.lt_of_succ_lt ht))
  rw [colMax_tile m c n 3 ht h0 (by norm_num) _ hb, colMax_tile m c n 2 _ h0 (by norm_num) _ hb,
    colMax_tile m c n 1 _ h0 (by norm_num) _ hb,
    show colMaxB (iblk m c 0 ⟨n, hn0⟩) (iblk m c 1 ⟨n, hn0⟩) (iblk m c 2 ⟨n, hn0⟩) i
        = Cert.Spec.Tiles.tileMax (fun s => Cert.Spec.prob (Zc m c) (Kc m c) (bOf ⟨n + 3, ht⟩) s i) ⟨0, by norm_num⟩
      from colMax_tile m c n 0 (show n + 0 < cfg0.N from hn0) h0 (by norm_num) _ hb i]
  exact Cert.Spec.Tiles.tiles_all _

/-! ## The gated rows' array -/

/-- The specification's output as an array. -/
def outArr (c : Dev nD) : S32x1024x1024.Idx → EReal :=
  fun i => Cert.Spec.zout (Zc m c) (Kc m c) (Wc m c) (Gc m c) (i 0) (i 1) (i 2)

theorem flushed7_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after_7]
  refine funext fun (y : S1x256x1024.Idx) => ?_
  obtain ⟨-, ⟨e0, e1, e2⟩, -⟩ := idx_facts t
  obtain ⟨u, r, d, rfl⟩ : ∃ (u : Fin 1) (r : Fin 256) (d : Fin 1024), y = ix3 u r d := ⟨y 0, y 1, y 2, eq_ix3 y⟩
  have hu : u.val = 0 := by have := u.isLt; omega
  show (rowsAt m c t (ix3 u r d) : EReal) = outArr m c (((cfg0.win 7).blk t).view.emb (ix3 u r d))
  refine (rows_point m c t u r d).trans ?_
  unfold outArr
  have a0 : ((cfg0.win 7).blk t).view.emb (ix3 u r d) 0 = bOf t :=
    Fin.ext (by show win0_7.index t (0 : Fin 3) * 1 + 1 * u.val = t.val / 4; omega)
  have a1 : ((cfg0.win 7).blk t).view.emb (ix3 u r d) 1 = sOf t r :=
    Fin.ext (by show win0_7.index t (1 : Fin 3) * 256 + 1 * r.val = t.val % 4 * 256 + r.val; omega)
  have a2 : ((cfg0.win 7).blk t).view.emb (ix3 u r d) 2 = d :=
    Fin.ext (by show win0_7.index t (2 : Fin 3) * 1024 + 1 * d.val = d.val; omega)
  rw [a0, a1, a2]

theorem mem_blk7 (t : Fin cfg0.N) (i : S32x1024x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v16_0).slice (win0_7.rect t)).set ↔ _
  rw [View.set_slice_whole, Rect.mem_set_unit]
  exact Iff.rfl

theorem cover7 (i : S32x1024x1024.Idx) : ∃ t : Fin cfg0.N, (cfg0.win 7).flush t = true ∧ i ∈ ((cfg0.win 7).blk t).view.set := by
  have hi0 : (i 0).val < 32 := (i 0).isLt
  have hi1 : (i 1).val < 1024 := (i 1).isLt
  have hi2 : (i 2).val < 1024 := (i 2).isLt
  have hlt : 4 * (i 0).val + (i 1).val / 256 < cfg0.N := by rw [show cfg0.N = 128 from N_0]; omega
  refine ⟨⟨4 * (i 0).val + (i 1).val / 256, hlt⟩, flush0_7 _, ?_⟩
  obtain ⟨-, ⟨e0, e1, e2⟩, -⟩ := idx_facts ⟨4 * (i 0).val + (i 1).val / 256, hlt⟩
  have ev : (⟨4 * (i 0).val + (i 1).val / 256, hlt⟩ : Fin cfg0.N).val = 4 * (i 0).val + (i 1).val / 256 := rfl
  rw [ev] at e0 e1
  rw [mem_blk7]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 256 ≤ (i 1).val ∧ (i 1).val < win0_7.index _ (1 : Fin 3) * 256 + 256; omega
  | ⟨2, _⟩ => show win0_7.index _ (2 : Fin 3) * 1024 ≤ (i 2).val ∧ (i 2).val < win0_7.index _ (2 : Fin 3) * 1024 + 1024; omega

/-- The gated rows' array after the launch. -/
theorem final7 (c : Dev nD) : (dats m 0 c).arrAt 7 cfg0.N = outArr m c :=
  (dats m 0 c).arrAt_eq_of_cover 7 (outArr m c) (fun t _ => flushed7_eq m c t) (cover7 ·)

/-! ## The summary array -/

/-- The largest probabilities, in each of the eight rows of a batch entry's block. -/
def sumArr (c : Dev nD) : S32x8x14.Idx → EReal :=
  fun i => Cert.Spec.mlc (Zc m c) (Kc m c) (i 0) (i 2)

theorem flushed8_eq (c : Dev nD) (t : Fin cfg0.N) (hf : (cfg0.win 8).flush t = true) :
    (dats m 0 c).flushed 8 t = ((cfg0.win 8).blk t).view.read (Elt Ideal) (sumArr m c) := by
  have h3 : t.val % 4 = 3 := (flush0_8 t).mp hf
  show (cfg0.win 8).cut (grid0.coords t) ((dats m 0 c).after 8 t) = _
  rw [after_8]
  refine funext fun (y : S1x8x14.Idx) => ?_
  obtain ⟨-, -, ⟨e0, e1, e2⟩, -⟩ := idx_facts t
  obtain ⟨u, q, i, rfl⟩ : ∃ (u : Fin 1) (q : Fin 8) (i : Fin 14), y = ix3 u q i := ⟨y 0, y 1, y 2, eq_ix3 y⟩
  have hu : u.val = 0 := by have := u.isLt; omega
  show (accAt m c t.val t.isLt (ix3 u q i) : EReal) = sumArr m c (((cfg0.win 8).blk t).view.emb (ix3 u q i))
  refine (acc_flush m c t h3 u q i).trans ?_
  unfold sumArr
  have a0 : ((cfg0.win 8).blk t).view.emb (ix3 u q i) 0 = bOf t :=
    Fin.ext (by show win0_8.index t (0 : Fin 3) * 1 + 1 * u.val = t.val / 4; omega)
  have a2 : ((cfg0.win 8).blk t).view.emb (ix3 u q i) 2 = i :=
    Fin.ext (by show win0_8.index t (2 : Fin 3) * 14 + 1 * i.val = i.val; omega)
  rw [a0, a2]

theorem mem_blk8 (t : Fin cfg0.N) (i : S32x8x14.Idx) :
    i ∈ ((cfg0.win 8).blk t).view.set ↔ ∀ a : Fin 3, win0_8.index t a * S1x8x14.size a ≤ (i a).val
      ∧ (i a).val < win0_8.index t a * S1x8x14.size a + S1x8x14.size a := by
  show i ∈ ((View.whole main_v16_1).slice (win0_8.rect t)).set ↔ _
  rw [View.set_slice_whole, Rect.mem_set_unit]
  exact Iff.rfl

theorem cover8 (i : S32x8x14.Idx) : ∃ t : Fin cfg0.N, (cfg0.win 8).flush t = true ∧ i ∈ ((cfg0.win 8).blk t).view.set := by
  have hi0 : (i 0).val < 32 := (i 0).isLt
  have hi1 : (i 1).val < 8 := (i 1).isLt
  have hi2 : (i 2).val < 14 := (i 2).isLt
  have hlt : 4 * (i 0).val + 3 < cfg0.N := by rw [show cfg0.N = 128 from N_0]; omega
  have ev : (⟨4 * (i 0).val + 3, hlt⟩ : Fin cfg0.N).val = 4 * (i 0).val + 3 := rfl
  refine ⟨⟨4 * (i 0).val + 3, hlt⟩, (flush0_8 _).mpr (by rw [ev]; omega), ?_⟩
  obtain ⟨-, -, ⟨e0, e1, e2⟩, -⟩ := idx_facts ⟨4 * (i 0).val + 3, hlt⟩
  rw [ev] at e0
  rw [mem_blk8]
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 8 ≤ (i 1).val ∧ (i 1).val < win0_8.index _ (1 : Fin 3) * 8 + 8; omega
  | ⟨2, _⟩ => show win0_8.index _ (2 : Fin 3) * 14 ≤ (i 2).val ∧ (i 2).val < win0_8.index _ (2 : Fin 3) * 14 + 14; omega

/-- The summary array after the launch. -/
theorem final8 (c : Dev nD) : (dats m 0 c).arrAt 8 cfg0.N = sumArr m c :=
  (dats m 0 c).arrAt_eq_of_cover 8 (sumArr m c) (fun t hf => flushed8_eq m c t hf) (cover8 ·)

end Cert.KernelIdeal.Val

end
-- ==== Proof.KV.Run.lean ====
/-
  The idealized kernel's run, read: every weakly fair execution runs to its end with the gated rows' array at the
  specification's output, the second result — row 0 of the summary array, as the host lines after the launch cut it out — at
  the largest probabilities, and the four argument arrays as they were.
-/
import proofs.«156527_j86320252715156_2_alg».proof.Proof.KV.Final
import Idealize.ShloMosaic.Lib.StableHlo.Run

set_option maxRecDepth 16384

noncomputable section

namespace Cert.KernelIdeal.Val

open Cert.KernelIdeal Cert.KernelIdeal.Gen Cert.KernelIdeal.Body Cert.KernelIdeal.Pay Cert.KernelIdeal.Arr
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ)

/-- The largest probabilities as the [32, 14] result. -/
def mlcArr (c : Dev nD) : S32x14.Idx → EReal :=
  fun j => Cert.Spec.mlc (Zc m c) (Kc m c) (j 0) (j 1)

/-- The host lines after the launch keep row 0 of each batch entry's block of the summary array. -/
theorem tail_v18 (c : Dev nD) :
    (Pipeline.afterTail₀ cfgs (dats m) 0 (V0 m) [hostOps1] c main_v18 : S32x14.Idx → EReal) = mlcArr m c := by
  unfold Pipeline.afterTail₀
  show StableHlo.after hostOps1 _ (Proc.devRef .tc main_v18) = _
  after_results
  funext j
  obtain ⟨b, i, rfl⟩ : ∃ (b : Fin 32) (i : Fin 14), j = ix2 b i := ⟨j 0, j 1, eq_ix2 j⟩
  show shapeCast S32x14 (extractStridedSlice S32x1x14 ![0, 0, 0]
      (Pipeline.withArrays (cfgs 0).spec c (V0 m c) (fun w => (dats m 0 c).arrAt w (cfgs 0).N) (Proc.devRef .tc main_v16_1))
      slices_S32x8x14_S32x1x14_0_0_0) shapeCasts_S32x1x14_S32x14 (ix2 b i) = _
  rw [dropMid_apply, slice3_axis1_apply 0 _ _ b (0 : Fin 1) i (0 : Fin 8) rfl,
    show Pipeline.withArrays (cfgs 0).spec c (V0 m c) (fun w => (dats m 0 c).arrAt w (cfgs 0).N) (Proc.devRef .tc main_v16_1)
        = sumArr m c from (Pipeline.withArrays_arr spec0 launch0.win.arr_inj c _ _ 8).trans (final8 m c)]
  rfl

/-- The run, with both results named. -/
theorem run (ρ : Dev nD → PrngReg) :
    θ_run defs (onTc (τ := τ) (main (F := Ideal))) ⟨m, fun _ => 0, ρ⟩ (fun r => ∀ c : Dev nD,
      r.2.mem ((c.tc : Thread nD τ).loc main_v16_0) = outArr m c
      ∧ r.2.mem ((c.tc : Thread nD τ).loc main_v18) = mlcArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 7).trans (final7 m c),
      ((h c).2 main_v18 (Pipeline.mem_restRefs_of main_v18 (by decide) (by decide))).trans (tail_v18 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Val

end
-- ==== Proof.LibFiniteTest.lean ====
/-
  The finiteness test `all(|x| < +∞)` of a float array, read on the extended reals.

  A precondition "every entry of x is finite" is computed as: take |x| entry by entry, compare it with the
  float +∞ stretched over x's shape, and take the conjunction of all the comparison bits. On the extended reals
  |x| is max x (−x), the float pattern 0x7F800000 is the top element, and max x (−x) < ⊤ holds exactly when x is
  neither infinity — when x is a real number. So if the conjunction is the bit 1, every entry of x is real.
  Stated for any shape of x and any list of reduced axes, over the literal shape of a single number ⟨0, ![]⟩.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value
import Mathlib.Data.EReal.Operations

noncomputable section

namespace Cert.Lib.FiniteTest

open Idealize.ShloMosaic Idealize.ShloMosaic.ValueIdx

/-- The shape of a single number has one index. -/
instance : Subsingleton (⟨0, ![]⟩ : Shape).Idx := ⟨fun _ _ => funext fun d => d.elim0⟩

/-- The float pattern of +∞ denotes the top of the extended reals. -/
theorem ofBits_inf : Ideal.ofBits .f32 0x7F800000#32 = (⊤ : EReal) := by simp [Ideal.ofBits, Ideal.ieee]

/-- An extended real whose absolute value, max x (−x), is below +∞ is a real number. -/
theorem exists_real_of_abs_lt_top {x : EReal} (h : max x (-x) < ⊤) : ∃ r : ℝ, x = (r : EReal) := by
  induction x using EReal.rec with
  | bot => simp at h
  | top => simp at h
  | coe r => exact ⟨r, rfl⟩

/-- One entry's test: |x i| < +∞ says that x i is a real number. -/
theorem real_of_abs_lt_inf {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  rw [cmpf_apply, Ideal.cmpf_def, broadcastInDim_apply _ hb _ i ix0 (fun a => a.elim0), constant_apply, ofBits_inf] at h
  have h' : max (x i) (-(x i)) < ⊤ := by
    by_contra hn
    have : Ideal.cmp .olt (Host.absf x i) ⊤ = 0#1 := by
      show BitVec.ofBool (decide (max (x i) (-(x i)) < ⊤)) = 0#1
      rw [decide_eq_false hn]; rfl
    rw [this] at h
    exact absurd h (by decide)
  exact exists_real_of_abs_lt_top h'

/-- The whole test: the conjunction over all entries is 1, so every entry is real. -/
theorem allReal_of_all {s : Shape} (x : FVec Ideal s .f32)
    (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (h : Host.reduce IntOp.andi (cmpf .olt (Host.absf x) (broadcastInDim s ![] hb (constant (F := Ideal) ⟨0, ![]⟩ .f32 0x7F800000#32)))
      (constantI ⟨0, ![]⟩ 1 1#1) hr hu ix0 = 1#1) : ∀ i, ∃ r : ℝ, x i = (r : EReal) :=
  fun i => real_of_abs_lt_inf x hb i (Host.reduce_andi_all _ _ hr hu ix0 h i)

end Cert.Lib.FiniteTest

end
-- ==== Proof.KV.Finite.lean ====
/-
  The precondition read on the extended reals: when the finiteness test of the four argument arrays is the bit 1, every
  entry of every argument array is a real number. The test is the conjunction of four tests, one per array, each the
  conjunction over all entries of |x| < +∞.
-/
import proofs.«156527_j86320252715156_2_alg».proof.Pre_finite_inputs
import proofs.«156527_j86320252715156_2_alg».proof.Proof.Gen.Pre_finite_inputs
import proofs.«156527_j86320252715156_2_alg».proof.Proof.LibFiniteTest
import Idealize.ShloMosaic.Lib.Affine

set_option maxRecDepth 16384

noncomputable section

namespace Cert.Pre_finite_inputs.Reals

open Cert.Pre_finite_inputs Cert.Pre_finite_inputs.Gen Idealize.ShloMosaic Idealize.ShloMosaic.ValueIdx Cert.Lib.FiniteTest

theorem reals_of_fn (x0 : FVec Ideal S32x1024x1024 .f32) (x1 : FVec Ideal S14x2x1024 .f32) (x2 : FVec Ideal S1024x2048 .f32)
    (x3 : FVec Ideal S1024 .f32) (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h1 := congrFun h ix0
  unfold fn fn_part1 at h1
  dsimp only at h1
  obtain ⟨h123, h4⟩ := IntOp.andi_eq_one.mp h1
  obtain ⟨h12, h3⟩ := IntOp.andi_eq_one.mp h123
  obtain ⟨h1', h2⟩ := IntOp.andi_eq_one.mp h12
  exact ⟨allReal_of_all x0 _ _ _ h1', allReal_of_all x1 _ _ _ h2, allReal_of_all x2 _ _ _ h3, allReal_of_all x3 _ _ _ h4⟩

end Cert.Pre_finite_inputs.Reals

end
-- ==== Proof.LibJoinCongr.lean ====
/-
  Joining two arrays along an axis respects equality of the pieces.

  The join's side condition speaks only of the pieces' shapes, so replacing each piece by an equal one of the same
  shape leaves the condition as it is.  Stated as a congruence rule for the two pieces.
-/
import Idealize.ShloMosaic.PureOps.ShapeOps

namespace Cert.Lib.JoinCongr

open Idealize.ShloMosaic

/-- Two pieces joined along an axis: equal pieces give equal joins. -/
theorem concatenate_pair_congr {α : Type} {t : Shape} {d : Fin t.rank} {s1 s2 : Shape} {a a' : s1.Idx → α} {b b' : s2.Idx → α}
    (h : Shape.Concatenates ([(⟨s1, a⟩ : (s : Shape) × (s.Idx → α)), ⟨s2, b⟩].map (·.1)) t d) (ha : a = a') (hb : b = b') :
    concatenate t d [⟨s1, a⟩, ⟨s2, b⟩] h = concatenate t d [⟨s1, a'⟩, ⟨s2, b'⟩] h := by
  subst ha; subst hb; rfl

end Cert.Lib.JoinCongr
-- ==== Proof.Ref.Index.lean ====
/-
  The index maps of the reference's layout operations, at indices given by coordinates. The reshape of the 28 score
  slots into (disease, state) pairs slot 2i + j with (i, j); the flat memory row 2i + j of the knowledge array is its
  row (i, j); the remaining maps keep, drop or insert a coordinate.
-/
import proofs.«156527_j86320252715156_2_alg».proof.Proof.RefReadP

noncomputable section

open scoped BigOperators

namespace Cert.ReferenceIdeal.RefValue

open Cert.ReferenceIdeal Cert.ReferenceIdeal.Gen Idealize.ShloMosaic Idealize.ShloMosaic.ValueIdx Cert.ReferenceIdeal.ReadP

/-- Slot 2i + j of the 28 flat memory rows: state j of disease i. -/
def slot (i : Fin 14) (j : Fin 2) : Fin 28 := ⟨2 * i.val + j.val, by have := i.isLt; have := j.isLt; omega⟩

theorem idx_v4_ix (b : Fin 32) (s : Fin 1024) (i : Fin 14) (j : Fin 2) :
    idx_main_v4 (ix4 b s i j) = ix3 b s (slot i j) := by
  funext a; apply Fin.ext
  have hb := b.isLt; have hs := s.isLt; have hi := i.isLt; have hj := j.isLt
  match a with
  | ⟨0, _⟩ => show (((b.val * 1024 + s.val) * 14 + i.val) * 2 + j.val) / 28672 = b.val; omega
  | ⟨1, _⟩ => show (((b.val * 1024 + s.val) * 14 + i.val) * 2 + j.val) / 28 % 1024 = s.val; omega
  | ⟨2, _⟩ => show (((b.val * 1024 + s.val) * 14 + i.val) * 2 + j.val) % 28 = 2 * i.val + j.val; omega

theorem lidx_v1_ix (b : Fin 32) (s : Fin 1024) (m : Fin 28) (k : Fin 1024) :
    lidx_main_v1 (ix3 b s m) k = ix3 b s k := by
  funext a; apply Fin.ext
  match a with
  | ⟨0, _⟩ => rfl
  | ⟨1, _⟩ => rfl
  | ⟨2, _⟩ => rfl

theorem ridx_v1_ix (b : Fin 32) (s : Fin 1024) (m : Fin 28) (k : Fin 1024) :
    ridx_main_v1 (ix3 b s m) k = ix2 m k := by
  funext a; apply Fin.ext
  match a with
  | ⟨0, _⟩ => rfl
  | ⟨1, _⟩ => rfl

theorem idx_v0_ix (i : Fin 14) (j : Fin 2) (k : Fin 1024) :
    idx_main_v0 (ix2 (slot i j) k) = ix3 i j k := by
  funext a; apply Fin.ext
  have hi := i.isLt; have hj := j.isLt; have hk := k.isLt
  match a with
  | ⟨0, _⟩ => show ((2 * i.val + j.val) * 1024 + k.val) / 2048 = i.val; omega
  | ⟨1, _⟩ => show ((2 * i.val + j.val) * 1024 + k.val) / 1024 % 2 = j.val; omega
  | ⟨2, _⟩ => show ((2 * i.val + j.val) * 1024 + k.val) % 1024 = k.val; omega

theorem idx_v17_ix (b : Fin 32) (s : Fin 1024) (i : Fin 14) :
    idx_main_v17 (ix3 b s i) = ix4 b s i (0 : Fin 1) := by
  funext a; apply Fin.ext
  have hb := b.isLt; have hs := s.isLt; have hi := i.isLt
  match a with
  | ⟨0, _⟩ => show ((b.val * 1024 + s.val) * 14 + i.val) / 14336 = b.val; omega
  | ⟨1, _⟩ => show ((b.val * 1024 + s.val) * 14 + i.val) / 14 % 1024 = s.val; omega
  | ⟨2, _⟩ => show ((b.val * 1024 + s.val) * 14 + i.val) / 1 % 14 = i.val; omega
  | ⟨3, _⟩ => rfl

theorem idx_v16_ix (b : Fin 32) (s : Fin 1024) (i : Fin 14) :
    idx_main_v16 (ix4 b s i (0 : Fin 1)) = ix4 b s i (1 : Fin 2) := by
  funext a; apply Fin.ext
  match a with
  | ⟨0, _⟩ => rfl
  | ⟨1, _⟩ => rfl
  | ⟨2, _⟩ => rfl
  | ⟨3, _⟩ => rfl

theorem idx_v14_ix (b : Fin 32) (s : Fin 1024) (i : Fin 14) (j : Fin 2) :
    idx_main_v14 (ix4 b s i j) = ix4 b s i (0 : Fin 1) := by
  funext a; apply Fin.ext
  match a with
  | ⟨0, _⟩ => rfl
  | ⟨1, _⟩ => rfl
  | ⟨2, _⟩ => rfl
  | ⟨3, _⟩ => rfl

theorem idx_v13_ix (b : Fin 32) (s : Fin 1024) (i : Fin 14) :
    idx_main_v13 (ix4 b s i (0 : Fin 1)) = ix3 b s i := by
  funext a; apply Fin.ext
  match a with
  | ⟨0, _⟩ => rfl
  | ⟨1, _⟩ => rfl
  | ⟨2, _⟩ => rfl

theorem idx_v12_ix (b : Fin 32) (s : Fin 1024) (i : Fin 14) (k : Fin 2) :
    idx_main_v12 (ix3 b s i) k = ix4 b s i k := by
  funext a; apply Fin.ext
  match a with
  | ⟨0, _⟩ => rfl
  | ⟨1, _⟩ => rfl
  | ⟨2, _⟩ => rfl
  | ⟨3, _⟩ => rfl

theorem idx_v9_ix (b : Fin 32) (s : Fin 1024) (i : Fin 14) (j : Fin 2) :
    idx_main_v9 (ix4 b s i j) = ix4 b s i (0 : Fin 1) := by
  funext a; apply Fin.ext
  match a with
  | ⟨0, _⟩ => rfl
  | ⟨1, _⟩ => rfl
  | ⟨2, _⟩ => rfl
  | ⟨3, _⟩ => rfl

theorem idx_v8_ix (b : Fin 32) (s : Fin 1024) (i : Fin 14) :
    idx_main_v8 (ix4 b s i (0 : Fin 1)) = ix3 b s i := by
  funext a; apply Fin.ext
  match a with
  | ⟨0, _⟩ => rfl
  | ⟨1, _⟩ => rfl
  | ⟨2, _⟩ => rfl

theorem lidx_v21_ix (b : Fin 32) (s : Fin 1024) (d : Fin 1024) (i : Fin 14) :
    lidx_main_v21 (ix3 b s d) i = ix3 b s i := by
  funext a; apply Fin.ext
  match a with
  | ⟨0, _⟩ => rfl
  | ⟨1, _⟩ => rfl
  | ⟨2, _⟩ => rfl

theorem ridx_v21_ix (b : Fin 32) (s : Fin 1024) (d : Fin 1024) (i : Fin 14) :
    ridx_main_v21 (ix3 b s d) i = ix2 i d := by
  funext a; apply Fin.ext
  match a with
  | ⟨0, _⟩ => rfl
  | ⟨1, _⟩ => rfl

theorem idx_v20_ix (i : Fin 14) (d : Fin 1024) :
    idx_main_v20 (ix2 i d) = ix3 i (0 : Fin 1) d := by
  funext a; apply Fin.ext
  have hi := i.isLt; have hd := d.isLt
  match a with
  | ⟨0, _⟩ => show (i.val * 1024 + d.val) / 1024 = i.val; omega
  | ⟨1, _⟩ => rfl
  | ⟨2, _⟩ => show (i.val * 1024 + d.val) % 1024 = d.val; omega

theorem idx_v19_ix (i : Fin 14) (d : Fin 1024) :
    idx_main_v19 (ix3 i (0 : Fin 1) d) = ix3 i (1 : Fin 2) d := by
  funext a; apply Fin.ext
  match a with
  | ⟨0, _⟩ => rfl
  | ⟨1, _⟩ => rfl
  | ⟨2, _⟩ => rfl

theorem lidx_v23_ix (b : Fin 32) (s : Fin 1024) (d : Fin 1024) (k : Fin 2048) :
    lidx_main_v23 (ix3 b s d) k = ix3 b s k := by
  funext a; apply Fin.ext
  match a with
  | ⟨0, _⟩ => rfl
  | ⟨1, _⟩ => rfl
  | ⟨2, _⟩ => rfl

theorem ridx_v23_ix (b : Fin 32) (s : Fin 1024) (d : Fin 1024) (k : Fin 2048) :
    ridx_main_v23 (ix3 b s d) k = ix2 d k := by
  funext a; apply Fin.ext
  match a with
  | ⟨0, _⟩ => rfl
  | ⟨1, _⟩ => rfl

theorem idx_v25_ix (b : Fin 32) (s : Fin 1024) (d : Fin 1024) :
    idx_main_v25 (ix3 b s d) = ix3 (0 : Fin 1) (0 : Fin 1) d := by
  funext a; apply Fin.ext
  match a with
  | ⟨0, _⟩ => rfl
  | ⟨1, _⟩ => rfl
  | ⟨2, _⟩ => rfl

theorem idx_v24_ix (d : Fin 1024) :
    idx_main_v24 (ix3 (0 : Fin 1) (0 : Fin 1) d) = ix1 d := by
  funext a; apply Fin.ext
  match a with
  | ⟨0, _⟩ => rfl

end Cert.ReferenceIdeal.RefValue

end
-- ==== Proof.Ref.Consts.lean ====
/-
  The binary32 patterns the reference's constants carry, as extended reals: 0x42000000 is 32, 0x3D000000 is 1/32
  (so dividing by the first is multiplying by the second), and 0xFF800000 is the bottom element, the unit of max.
-/
import Idealize.ShloMosaic.PureOps.Ideal.Laws
import Idealize.ShloMosaic.Lib.IdealHost

namespace Cert.ReferenceIdeal.RefValue

open Idealize.ShloMosaic

/-- The pattern 0x42000000 is the real 32 = 2^5. -/
theorem ofBits_thirtyTwo : Ideal.ofBits .f32 0x42000000#32 = ((32 : ℝ) : EReal) := by
  simp [Ideal.ofBits, Ideal.ieee, -EReal.coe_mul]; norm_num

/-- The pattern 0x3D000000 is the real 1/32 = 2^-5. -/
theorem ofBits_thirtySecond : Ideal.ofBits .f32 0x3D000000#32 = (((1 : ℝ) / 32 : ℝ) : EReal) := by
  simp [Ideal.ofBits, Ideal.ieee, -EReal.coe_mul]; norm_num

/-- The pattern 0xFF800000 is minus infinity, the bottom of the extended reals. -/
theorem ofBits_negInf : Ideal.ofBits .f32 0xFF800000#32 = (⊥ : EReal) := by
  simp [Ideal.ofBits, Ideal.ieee]

/-- Dividing by the constant 32 is multiplying by the constant 1/32, on every extended real. -/
theorem div_thirtyTwo (x : EReal) :
    Ideal.div x (Ideal.ofBits .f32 0x42000000#32) = x * Ideal.ofBits .f32 0x3D000000#32 := by
  rw [ofBits_thirtyTwo, ofBits_thirtySecond]
  exact Ideal.div_coe (by norm_num) x

end Cert.ReferenceIdeal.RefValue
-- ==== Proof.Ref.ERealSum.lean ====
/-
  A finite sum of real numbers, taken in the extended reals, is the real sum; so a finite sum of extended reals that
  are all real is real, and so is a product of two of them.
-/
import Idealize.ShloMosaic.PureOps.Ideal

open scoped BigOperators

namespace Cert.ReferenceIdeal.RefValue

/-- The coercion of the reals into the extended reals commutes with finite sums. -/
theorem coe_sum {ι : Type} (s : Finset ι) (g : ι → ℝ) :
    ∑ k ∈ s, ((g k : ℝ) : EReal) = ((∑ k ∈ s, g k : ℝ) : EReal) := by
  classical
  refine Finset.induction_on s ?_ ?_
  · simp
  · intro a s ha ih
    rw [Finset.sum_insert ha, Finset.sum_insert ha, ih, EReal.coe_add]

/-- A finite sum whose terms are all real is real. -/
theorem sum_real {ι : Type} [Fintype ι] (f : ι → EReal) (hf : ∀ k, ∃ r : ℝ, f k = (r : EReal)) :
    ∃ r : ℝ, ∑ k, f k = (r : EReal) := by
  choose g hg using hf
  exact ⟨∑ k, g k, by rw [← coe_sum]; exact Finset.sum_congr rfl fun k _ => hg k⟩

/-- A product of two reals is real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

end Cert.ReferenceIdeal.RefValue
-- ==== Proof.Ref.Score.lean ====
/-
  The reference's scaled score at (batch entry, patch, disease, state): the reshape reads slot 2i + j of the quotient
  by 32 of the contraction of the patch's row against flat memory row 2i + j, which is row (i, j) of the knowledge
  array; dividing by 32 is multiplying by 1/32 on every extended real. With real inputs the score is a real number.
-/
import proofs.«156527_j86320252715156_2_alg».proof.Proof.RefReadP
import proofs.«156527_j86320252715156_2_alg».proof.Proof.Spec
import proofs.«156527_j86320252715156_2_alg».proof.Proof.Ref.Consts
import proofs.«156527_j86320252715156_2_alg».proof.Proof.Ref.Index
import proofs.«156527_j86320252715156_2_alg».proof.Proof.Ref.ERealSum

noncomputable section

open scoped BigOperators

namespace Cert.ReferenceIdeal.RefValue

open Cert.ReferenceIdeal Cert.ReferenceIdeal.Gen Idealize.ShloMosaic Idealize.ShloMosaic.ValueIdx Cert.ReferenceIdeal.ReadP

/-- The reference's score array at (b, s, i, j) is the specification's score. -/
theorem v4_eq_score (x0 : (⟨S32x1024x1024, .f32⟩ : BufTy).Contents (Elt Ideal)) (x1 : (⟨S14x2x1024, .f32⟩ : BufTy).Contents (Elt Ideal))
    (b : Fin 32) (s : Fin 1024) (i : Fin 14) (j : Fin 2) :
    val_main_v4 (F := Ideal) x0 x1 (ix4 b s i j) = Spec.score (Spec.zOf x0) (Spec.kOf x1) b s i j := by
  rw [val_main_v4_apply, idx_v4_ix, val_main_v3_apply, val_main_v1_apply, val_main_v2_apply, val_main_cst_apply]
  simp only [Ideal.hostDivf_def, Ideal.ofBits_def]
  rw [div_thirtyTwo]
  unfold Spec.score Spec.scale Spec.zOf Spec.kOf
  refine congrArg (· * Ideal.ofBits .f32 0x3D000000#32) ?_
  refine Finset.sum_congr rfl fun k _ => ?_
  rw [val_main_v0_apply, lidx_v1_ix, ridx_v1_ix, idx_v0_ix]

/-- With real inputs every score is a real number. -/
theorem score_real (z : Fin 32 → Fin 1024 → Fin 1024 → EReal) (K : Fin 14 → Fin 2 → Fin 1024 → EReal)
    (hz : ∀ b s k, ∃ r : ℝ, z b s k = (r : EReal)) (hK : ∀ i j k, ∃ r : ℝ, K i j k = (r : EReal))
    (b : Fin 32) (s : Fin 1024) (i : Fin 14) (j : Fin 2) : ∃ r : ℝ, Spec.score z K b s i j = (r : EReal) := by
  unfold Spec.score Spec.scale
  rw [ofBits_thirtySecond]
  exact mul_real (sum_real _ fun k => mul_real (hz b s k) (hK i j k)) ⟨_, rfl⟩

end Cert.ReferenceIdeal.RefValue

end
-- ==== Proof.LibSoftmaxPair.lean ====
/-
  A softmax over TWO entries, second entry: it is the logistic function of the difference of the two scores.
  Over the reals, for any shift m subtracted before exponentiating (a numerically stable softmax subtracts the larger
  score; the law holds for every m): e^(b-m) / (e^(a-m) + e^(b-m)) = 1 / (1 + e^(-(b-a))).
  On the extended reals, at REAL scores a and b, the quotient exp(b - m) / (0 + (exp(a - m) + exp(b - m))) — the sum taken
  from zero, as a host reduction does — is Ideal.logistic (b - a). Also: a fold of max over Fin 2 from an initial value, and
  the running maximum of two real scores from the bottom element as the real number max a b.
  Imports Mathlib and the ideal float values only.
-/
import Mathlib.Analysis.SpecialFunctions.Exp
import Mathlib.Tactic
import Idealize.ShloMosaic.PureOps.Ideal

namespace Cert.Lib.SoftmaxPair

open Idealize.ShloMosaic

/-- The second entry of a two-way softmax, whatever shift is subtracted first, is the logistic of the difference. -/
theorem softmax2_snd_eq_logistic (a b m : ℝ) :
    Real.exp (b - m) / (Real.exp (a - m) + Real.exp (b - m)) = (1 + Real.exp (-(b - a)))⁻¹ := by
  have hm : Real.exp m ≠ 0 := (Real.exp_pos m).ne'
  have ha : Real.exp a ≠ 0 := (Real.exp_pos a).ne'
  have hb : Real.exp b ≠ 0 := (Real.exp_pos b).ne'
  have hab : Real.exp a + Real.exp b ≠ 0 := (add_pos (Real.exp_pos a) (Real.exp_pos b)).ne'
  rw [Real.exp_sub, Real.exp_sub, neg_sub, Real.exp_sub]
  field_simp
  ring

/-- The denominator of a two-way softmax is a positive real, so it is not zero. -/
theorem softmax2_den_ne_zero (a b m : ℝ) : Real.exp (a - m) + Real.exp (b - m) ≠ 0 :=
  (add_pos (Real.exp_pos _) (Real.exp_pos _)).ne'

/-- At real scores the quotient the reference computes is the logistic of the difference of the scores. -/
theorem softmax2_snd_ereal (a b m : ℝ) :
    Ideal.div (Ideal.exp ((b : EReal) - (m : EReal)))
        ((0 : EReal) + (Ideal.exp ((a : EReal) - (m : EReal)) + Ideal.exp ((b : EReal) - (m : EReal))))
      = Ideal.logistic ((b : EReal) - (a : EReal)) := by
  rw [← EReal.coe_sub, ← EReal.coe_sub, ← EReal.coe_sub, Ideal.exp_coe, Ideal.exp_coe, zero_add, ← EReal.coe_add,
    Ideal.div_coe (softmax2_den_ne_zero a b m), ← EReal.coe_mul, Ideal.logistic_coe, ← softmax2_snd_eq_logistic a b m,
    mul_one_div]

/-- A fold of max over the two states is the larger of the two entries and the initial value. -/
theorem fold_max_fin2 (c : EReal) (f : Fin 2 → EReal) :
    (Finset.univ : Finset (Fin 2)).fold max c f = max (f 0) (max (f 1) c) := by
  have h : (Finset.univ : Finset (Fin 2)) = {0, 1} := by decide
  rw [h, Finset.fold_insert (by decide), Finset.fold_singleton]

/-- From the bottom element, the running maximum of two real scores is the real number max a b. -/
theorem max_bot_real (a b : ℝ) :
    max (⊥ : EReal) (max (a : EReal) (max (b : EReal) ⊥)) = ((max a b : ℝ) : EReal) := by
  rw [max_bot_right, max_bot_left]
  exact (EReal.coe_strictMono.monotone.map_max).symm

end Cert.Lib.SoftmaxPair
-- ==== Proof.Ref.Softmax.lean ====
/-
  The reference's two-way softmax over the states, read operation by operation at (batch entry, patch, disease): the
  running maximum from the bottom element, the two exponentials of the shifted scores, their sum from zero, and the
  quotient whose second entry the slice keeps.
-/
import proofs.«156527_j86320252715156_2_alg».proof.Proof.RefReadP
import proofs.«156527_j86320252715156_2_alg».proof.Proof.Ref.Index
import proofs.«156527_j86320252715156_2_alg».proof.Proof.LibSoftmaxPair
import Idealize.ShloMosaic.PureOps.Reduce

noncomputable section

open scoped BigOperators

namespace Cert.ReferenceIdeal.RefValue

open Cert.Lib.SoftmaxPair

open Cert.ReferenceIdeal Cert.ReferenceIdeal.Gen Idealize.ShloMosaic Idealize.ShloMosaic.ValueIdx Cert.ReferenceIdeal.ReadP

/-- The score array reduces along its last axis to the (batch entry, patch, disease) array. -/
theorem reduces_states : S32x1024x14x2.Reduces [3] S32x1024x14 := by decide

/-- The reduced index (b, s, i) with state k put back is (b, s, i, k). -/
theorem lift_states (b : Fin 32) (s : Fin 1024) (i : Fin 14) (k : Fin (S32x1024x14x2.size 3)) :
    reduces_states.lift (ix3 b s i) k = ix4 b s i (⟨k.val, k.isLt⟩ : Fin 2) := by
  funext c; apply Fin.ext
  fin_cases c <;> rfl

/-- The largest score over the two states, from the initial value. -/
theorem v5_ix (x0 : (⟨S32x1024x1024, .f32⟩ : BufTy).Contents (Elt Ideal)) (x1 : (⟨S14x2x1024, .f32⟩ : BufTy).Contents (Elt Ideal))
    (b : Fin 32) (s : Fin 1024) (i : Fin 14) :
    val_main_v5 (F := Ideal) x0 x1 (ix3 b s i)
      = max (val_main_v4 (F := Ideal) x0 x1 (ix4 b s i (0 : Fin 2)))
          (max (val_main_v4 (F := Ideal) x0 x1 (ix4 b s i (1 : Fin 2))) (Ideal.ofBits .f32 0xFF800000#32)) := by
  unfold val_main_v5
  generalize val_main_v4 (F := Ideal) x0 x1 = y
  rw [Host.reduce_eq_fold_single (α := Ideal .f32) (FloatOps.maximumf (F := Ideal) (φ := .f32)) y _ _ reduces_states h_S_]
  have hf : (y ∘ reduces_states.lift (ix3 b s i)) = fun k : Fin 2 => y (ix4 b s i k) :=
    funext fun k => congrArg y (lift_states b s i k)
  rw [hf]
  exact fold_max_fin2 _ _

set_option maxHeartbeats 40000 in
/-- The shift the reference subtracts: the running maximum, once more against the bottom pattern. -/
theorem v7_ix (x0 : (⟨S32x1024x1024, .f32⟩ : BufTy).Contents (Elt Ideal)) (x1 : (⟨S14x2x1024, .f32⟩ : BufTy).Contents (Elt Ideal))
    (b : Fin 32) (s : Fin 1024) (i : Fin 14) :
    val_main_v7 (F := Ideal) x0 x1 (ix3 b s i)
      = max (Ideal.ofBits .f32 0xFF800000#32) (val_main_v5 (F := Ideal) x0 x1 (ix3 b s i)) := by
  rw [val_main_v7_apply, val_main_v6_apply, val_main_cst_1_apply]
  rfl

set_option maxHeartbeats 40000 in
/-- The shift broadcast back over the two states. -/
theorem v9_ix (x0 : (⟨S32x1024x1024, .f32⟩ : BufTy).Contents (Elt Ideal)) (x1 : (⟨S14x2x1024, .f32⟩ : BufTy).Contents (Elt Ideal))
    (b : Fin 32) (s : Fin 1024) (i : Fin 14) (j : Fin 2) :
    val_main_v9 (F := Ideal) x0 x1 (ix4 b s i j) = val_main_v7 (F := Ideal) x0 x1 (ix3 b s i) := by
  rw [val_main_v9_apply, idx_v9_ix, val_main_v8_apply, idx_v8_ix]

set_option maxHeartbeats 40000 in
/-- The exponential of the shifted score. -/
theorem v11_ix (x0 : (⟨S32x1024x1024, .f32⟩ : BufTy).Contents (Elt Ideal)) (x1 : (⟨S14x2x1024, .f32⟩ : BufTy).Contents (Elt Ideal))
    (b : Fin 32) (s : Fin 1024) (i : Fin 14) (j : Fin 2) :
    val_main_v11 (F := Ideal) x0 x1 (ix4 b s i j)
      = Ideal.exp (val_main_v4 (F := Ideal) x0 x1 (ix4 b s i j) - val_main_v7 (F := Ideal) x0 x1 (ix3 b s i)) := by
  rw [val_main_v11_apply, val_main_v10_apply, v9_ix]
  rfl

set_option maxHeartbeats 40000 in
/-- The sum of the two exponentials, from the zero pattern. -/
theorem v12_ix (x0 : (⟨S32x1024x1024, .f32⟩ : BufTy).Contents (Elt Ideal)) (x1 : (⟨S14x2x1024, .f32⟩ : BufTy).Contents (Elt Ideal))
    (b : Fin 32) (s : Fin 1024) (i : Fin 14) :
    val_main_v12 (F := Ideal) x0 x1 (ix3 b s i)
      = Ideal.ofBits .f32 0x00000000#32 + (val_main_v11 (F := Ideal) x0 x1 (ix4 b s i (0 : Fin 2))
          + val_main_v11 (F := Ideal) x0 x1 (ix4 b s i (1 : Fin 2))) := by
  rw [val_main_v12_apply, Fin.sum_univ_two, idx_v12_ix, idx_v12_ix, val_main_cst_2_apply]
  rfl

set_option maxHeartbeats 40000 in
/-- The sum broadcast back over the two states. -/
theorem v14_ix (x0 : (⟨S32x1024x1024, .f32⟩ : BufTy).Contents (Elt Ideal)) (x1 : (⟨S14x2x1024, .f32⟩ : BufTy).Contents (Elt Ideal))
    (b : Fin 32) (s : Fin 1024) (i : Fin 14) (j : Fin 2) :
    val_main_v14 (F := Ideal) x0 x1 (ix4 b s i j) = val_main_v12 (F := Ideal) x0 x1 (ix3 b s i) := by
  rw [val_main_v14_apply, idx_v14_ix, val_main_v13_apply, idx_v13_ix]

set_option maxHeartbeats 40000 in
/-- The probability array keeps the second entry of the quotient. -/
theorem v17_ix (x0 : (⟨S32x1024x1024, .f32⟩ : BufTy).Contents (Elt Ideal)) (x1 : (⟨S14x2x1024, .f32⟩ : BufTy).Contents (Elt Ideal))
    (b : Fin 32) (s : Fin 1024) (i : Fin 14) :
    val_main_v17 (F := Ideal) x0 x1 (ix3 b s i)
      = Ideal.div (val_main_v11 (F := Ideal) x0 x1 (ix4 b s i (1 : Fin 2))) (val_main_v12 (F := Ideal) x0 x1 (ix3 b s i)) := by
  rw [val_main_v17_apply, idx_v17_ix, val_main_v16_apply, idx_v16_ix, val_main_v15_apply, v14_ix]
  rfl

end Cert.ReferenceIdeal.RefValue

end
-- ==== Proof.Ref.Prob.lean ====
/-
  The reference's probability at (batch entry, patch, disease) is the specification's: with real inputs the two scores
  are real numbers a0 and a1, the shift is max a0 a1, and the second entry of the two-way softmax is the logistic
  function of a1 - a0.
-/
import proofs.«156527_j86320252715156_2_alg».proof.Proof.RefReadP
import proofs.«156527_j86320252715156_2_alg».proof.Proof.Spec
import proofs.«156527_j86320252715156_2_alg».proof.Proof.Ref.Consts
import proofs.«156527_j86320252715156_2_alg».proof.Proof.Ref.Score
import proofs.«156527_j86320252715156_2_alg».proof.Proof.LibSoftmaxPair
import proofs.«156527_j86320252715156_2_alg».proof.Proof.Ref.Softmax
import Idealize.ShloMosaic.PureOps.Ideal.Laws

noncomputable section

open scoped BigOperators

namespace Cert.ReferenceIdeal.RefValue

open Cert.Lib.SoftmaxPair

open Cert.ReferenceIdeal Cert.ReferenceIdeal.Gen Idealize.ShloMosaic Idealize.ShloMosaic.ValueIdx Cert.ReferenceIdeal.ReadP

set_option maxHeartbeats 60000 in
/-- The reference's probability array at (b, s, i) is the specification's probability. -/
theorem v17_eq_prob (x0 : (⟨S32x1024x1024, .f32⟩ : BufTy).Contents (Elt Ideal)) (x1 : (⟨S14x2x1024, .f32⟩ : BufTy).Contents (Elt Ideal))
    (h0 : ∀ i, ∃ r : ℝ, x0 i = (r : EReal)) (h1 : ∀ i, ∃ r : ℝ, x1 i = (r : EReal))
    (b : Fin 32) (s : Fin 1024) (i : Fin 14) :
    val_main_v17 (F := Ideal) x0 x1 (ix3 b s i) = Spec.prob (Spec.zOf x0) (Spec.kOf x1) b s i := by
  obtain ⟨a0, ha0⟩ := score_real (Spec.zOf x0) (Spec.kOf x1) (fun b s k => h0 _) (fun i j k => h1 _) b s i 0
  obtain ⟨a1, ha1⟩ := score_real (Spec.zOf x0) (Spec.kOf x1) (fun b s k => h0 _) (fun i j k => h1 _) b s i 1
  rw [v17_ix, v12_ix, v11_ix, v11_ix, v7_ix, v5_ix, v4_eq_score, v4_eq_score, ha0, ha1, ofBits_negInf,
    Ideal.ofBits_zero_f32, max_bot_real]
  unfold Spec.prob
  rw [ha0, ha1]
  exact softmax2_snd_ereal a0 a1 (max a0 a1)

end Cert.ReferenceIdeal.RefValue

end
-- ==== Proof.Ref.Attend.lean ====
/-
  The reference's attended row at (batch entry, patch, feature): the contraction over the 14 diseases of the
  probabilities against the "present" rows of the knowledge array (its slice at state 1, reshaped to [14, 1024]).
-/
import proofs.«156527_j86320252715156_2_alg».proof.Proof.RefReadP
import proofs.«156527_j86320252715156_2_alg».proof.Proof.Spec
import proofs.«156527_j86320252715156_2_alg».proof.Proof.Ref.Index
import proofs.«156527_j86320252715156_2_alg».proof.Proof.Ref.Prob

noncomputable section

open scoped BigOperators

namespace Cert.ReferenceIdeal.RefValue

open Cert.ReferenceIdeal Cert.ReferenceIdeal.Gen Idealize.ShloMosaic Idealize.ShloMosaic.ValueIdx Cert.ReferenceIdeal.ReadP

set_option maxHeartbeats 40000 in
/-- The sliced and reshaped knowledge array at (i, d) is the "present" row of disease i at feature d. -/
theorem v20_ix (x1 : (⟨S14x2x1024, .f32⟩ : BufTy).Contents (Elt Ideal)) (i : Fin 14) (d : Fin 1024) :
    val_main_v20 (F := Ideal) x1 (ix2 i d) = Spec.kOf x1 i 1 d := by
  rw [val_main_v20_apply, idx_v20_ix, val_main_v19_apply, idx_v19_ix]
  rfl

set_option maxHeartbeats 60000 in
/-- The reference's attended array at (b, s, d) is the specification's attended row. -/
theorem v21_eq_attend (x0 : (⟨S32x1024x1024, .f32⟩ : BufTy).Contents (Elt Ideal)) (x1 : (⟨S14x2x1024, .f32⟩ : BufTy).Contents (Elt Ideal))
    (h0 : ∀ i, ∃ r : ℝ, x0 i = (r : EReal)) (h1 : ∀ i, ∃ r : ℝ, x1 i = (r : EReal)) (b : Fin 32) (s : Fin 1024) (d : Fin 1024) :
    val_main_v21 (F := Ideal) x0 x1 (ix3 b s d) = Spec.attend (Spec.zOf x0) (Spec.kOf x1) b s d := by
  rw [val_main_v21_apply]
  unfold Spec.attend
  refine Finset.sum_congr rfl fun i _ => ?_
  rw [lidx_v21_ix, ridx_v21_ix, v17_eq_prob x0 x1 h0 h1, v20_ix]

end Cert.ReferenceIdeal.RefValue

end
-- ==== Proof.Ref.Gate.lean ====
/-
  The gate's contraction at (batch entry, patch, output feature): the 2048 columns of the concatenated array are
  the patch's 1024 features followed by its 1024 attended features, so the sum over the 2048 columns is the sum over
  the left half of the weights against the features plus the sum over the right half against the attended row.
  Addition of extended reals is a commutative monoid: no finiteness is needed for the split.
-/
import proofs.«156527_j86320252715156_2_alg».proof.Proof.RefReadP
import proofs.«156527_j86320252715156_2_alg».proof.Proof.Spec
import proofs.«156527_j86320252715156_2_alg».proof.Proof.Ref.Index
import proofs.«156527_j86320252715156_2_alg».proof.Proof.Ref.Attend
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.ReferenceIdeal.ReadP

set_option maxHeartbeats 60000 in
/-- The concatenated array at a column of the left half is the feature array. -/
theorem v22_lo (x0 : (⟨S32x1024x1024, .f32⟩ : BufTy).Contents (Elt Ideal)) (x1 : (⟨S14x2x1024, .f32⟩ : BufTy).Contents (Elt Ideal))
    (b : Fin 32) (s : Fin 1024) (k : Fin 1024) :
    val_main_v22 (F := Ideal) x0 x1 (ix3 b s (Spec.lo k)) = x0 (ix3 b s k) := by
  unfold val_main_v22
  exact concatenate_pair_apply_left (2 : Fin S32x1024x2048.rank) x0 (val_main_v21 (F := Ideal) x0 x1)
    concatenates_S32x1024x1024_S32x1024x1024_S32x1024x2048_d2 (ix3 b s (Spec.lo k)) rfl (ix3 b s k)
    (fun c => by fin_cases c <;> rfl)

set_option maxHeartbeats 60000 in
/-- The concatenated array at a column of the right half is the attended array. -/
theorem v22_hi (x0 : (⟨S32x1024x1024, .f32⟩ : BufTy).Contents (Elt Ideal)) (x1 : (⟨S14x2x1024, .f32⟩ : BufTy).Contents (Elt Ideal))
    (b : Fin 32) (s : Fin 1024) (k : Fin 1024) :
    val_main_v22 (F := Ideal) x0 x1 (ix3 b s (Spec.hi k)) = val_main_v21 (F := Ideal) x0 x1 (ix3 b s k) := by
  unfold val_main_v22
  exact concatenate_pair_apply_right (2 : Fin S32x1024x2048.rank) x0 (val_main_v21 (F := Ideal) x0 x1)
    concatenates_S32x1024x1024_S32x1024x1024_S32x1024x2048_d2 (ix3 b s (Spec.hi k)) rfl rfl (ix3 b s k)
    (fun c => by fin_cases c <;> intro hc <;> first | rfl | exact absurd rfl hc)
    (by show k.val + 1024 = 1024 + k.val; omega)

/-- A sum over 2048 columns is the sum over the left 1024 plus the sum over the right 1024. -/
theorem sum_halves (f : Fin 2048 → EReal) :
    ∑ k : Fin 2048, f k = ∑ k : Fin 1024, f (Spec.lo k) + ∑ k : Fin 1024, f (Spec.hi k) := by
  refine (Fin.sum_univ_add (a := 1024) (b := 1024) f).trans ?_
  congr 1 <;> exact Finset.sum_congr rfl fun k _ => congrArg f (Fin.ext rfl)

set_option maxHeartbeats 80000 in
/-- The gate's contraction at (b, s, d), split at the seam of the concatenation. -/
theorem v23_ix (x0 : (⟨S32x1024x1024, .f32⟩ : BufTy).Contents (Elt Ideal)) (x1 : (⟨S14x2x1024, .f32⟩ : BufTy).Contents (Elt Ideal)) (x2 : (⟨S1024x2048, .f32⟩ : BufTy).Contents (Elt Ideal))
    (h0 : ∀ i, ∃ r : ℝ, x0 i = (r : EReal)) (h1 : ∀ i, ∃ r : ℝ, x1 i = (r : EReal)) (b : Fin 32) (s : Fin 1024) (d : Fin 1024) :
    val_main_v23 (F := Ideal) x0 x1 x2 (ix3 b s d)
      = (∑ k : Fin 1024, Spec.zOf x0 b s k * Spec.wOf x2 d (Spec.lo k))
        + (∑ k : Fin 1024, Spec.attend (Spec.zOf x0) (Spec.kOf x1) b s k * Spec.wOf x2 d (Spec.hi k)) := by
  rw [val_main_v23_apply, sum_halves]
  refine congrArg₂ (· + ·) ?_ ?_
  · refine Finset.sum_congr rfl fun k _ => ?_
    rw [lidx_v23_ix, ridx_v23_ix, v22_lo]
    rfl
  · refine Finset.sum_congr rfl fun k _ => ?_
    rw [lidx_v23_ix, ridx_v23_ix, v22_hi, v21_eq_attend x0 x1 h0 h1]
    rfl

end Cert.ReferenceIdeal.RefValue

end
-- ==== Proof.Ref.Zout.lean ====
/-
  The reference's first result at (batch entry, patch, feature): the gate's logit is the split contraction plus the
  broadcast bias; 1 / (1 + exp(-logit)) is the logistic function of the logit by its definition on the extended
  reals (the pattern 0x3F800000 is 1); and the result is the feature plus the gate times the attended feature.
-/
import proofs.«156527_j86320252715156_2_alg».proof.Proof.RefReadP
import proofs.«156527_j86320252715156_2_alg».proof.Proof.Spec
import proofs.«156527_j86320252715156_2_alg».proof.Proof.Ref.Index
import proofs.«156527_j86320252715156_2_alg».proof.Proof.Ref.Attend
import proofs.«156527_j86320252715156_2_alg».proof.Proof.Ref.Gate
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.ReferenceIdeal.ReadP

set_option maxHeartbeats 60000 in
/-- The gate's logit at (b, s, d): the contraction plus the bias. -/
theorem v26_eq_logit (x0 : (⟨S32x1024x1024, .f32⟩ : BufTy).Contents (Elt Ideal)) (x1 : (⟨S14x2x1024, .f32⟩ : BufTy).Contents (Elt Ideal)) (x2 : (⟨S1024x2048, .f32⟩ : BufTy).Contents (Elt Ideal)) (x3 : (⟨S1024, .f32⟩ : BufTy).Contents (Elt Ideal))
    (h0 : ∀ i, ∃ r : ℝ, x0 i = (r : EReal)) (h1 : ∀ i, ∃ r : ℝ, x1 i = (r : EReal)) (b : Fin 32) (s : Fin 1024) (d : Fin 1024) :
    val_main_v26 (F := Ideal) x0 x1 x2 x3 (ix3 b s d)
      = Spec.gateLogit (Spec.zOf x0) (Spec.kOf x1) (Spec.wOf x2) (Spec.gOf x3) b s d := by
  rw [val_main_v26_apply, v23_ix x0 x1 x2 h0 h1, val_main_v25_apply, idx_v25_ix, val_main_v24_apply, idx_v24_ix]
  rfl

set_option maxHeartbeats 60000 in
/-- The gate at (b, s, d): one over one plus the exponential of minus the logit is the logistic of the logit. -/
theorem v32_eq_gate (x0 : (⟨S32x1024x1024, .f32⟩ : BufTy).Contents (Elt Ideal)) (x1 : (⟨S14x2x1024, .f32⟩ : BufTy).Contents (Elt Ideal)) (x2 : (⟨S1024x2048, .f32⟩ : BufTy).Contents (Elt Ideal)) (x3 : (⟨S1024, .f32⟩ : BufTy).Contents (Elt Ideal))
    (h0 : ∀ i, ∃ r : ℝ, x0 i = (r : EReal)) (h1 : ∀ i, ∃ r : ℝ, x1 i = (r : EReal)) (b : Fin 32) (s : Fin 1024) (d : Fin 1024) :
    val_main_v32 (F := Ideal) x0 x1 x2 x3 (ix3 b s d)
      = Ideal.logistic (Spec.gateLogit (Spec.zOf x0) (Spec.kOf x1) (Spec.wOf x2) (Spec.gOf x3) b s d) := by
  rw [val_main_v32_apply, val_main_v31_apply, val_main_cst_5_apply, val_main_v30_apply, val_main_v29_apply,
    val_main_cst_4_apply, val_main_v28_apply, val_main_v27_apply, v26_eq_logit x0 x1 x2 x3 h0 h1]
  simp only [Ideal.ofBits_def, Ideal.ofBits_one_f32, Ideal.hostDivf_def, Ideal.addf_def, Ideal.hostUnary_exp_def,
    Ideal.hostNegf_def, Ideal.negf_def]
  rfl

set_option maxHeartbeats 60000 in
/-- The reference's first result, read at (b, s, d), is the specification's gated residual output. -/
theorem ref_zout (x0 : (⟨S32x1024x1024, .f32⟩ : BufTy).Contents (Elt Ideal)) (x1 : (⟨S14x2x1024, .f32⟩ : BufTy).Contents (Elt Ideal)) (x2 : (⟨S1024x2048, .f32⟩ : BufTy).Contents (Elt Ideal)) (x3 : (⟨S1024, .f32⟩ : BufTy).Contents (Elt Ideal))
    (h0 : ∀ i, ∃ r : ℝ, x0 i = (r : EReal)) (h1 : ∀ i, ∃ r : ℝ, x1 i = (r : EReal)) (b : Fin 32) (s : Fin 1024) (d : Fin 1024) :
    val_main_v34 (F := Ideal) x0 x1 x2 x3 (ix3 b s d)
      = Spec.zout (Spec.zOf x0) (Spec.kOf x1) (Spec.wOf x2) (Spec.gOf x3) b s d := by
  rw [val_main_v34_apply, val_main_v33_apply, v32_eq_gate x0 x1 x2 x3 h0 h1, v21_eq_attend x0 x1 h0 h1]
  rfl

end Cert.ReferenceIdeal.RefValue

end
-- ==== Proof.Ref.Mlc.lean ====
/-
  The reference's per-disease summary at (batch entry, disease): the fold of max, from the bottom element, of the
  probabilities over the 1024 patches, which is the specification's.
-/
import proofs.«156527_j86320252715156_2_alg».proof.Proof.RefReadP
import proofs.«156527_j86320252715156_2_alg».proof.Proof.Spec
import proofs.«156527_j86320252715156_2_alg».proof.Proof.Ref.Consts
import proofs.«156527_j86320252715156_2_alg».proof.Proof.Ref.Prob
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx Cert.ReferenceIdeal.ReadP

/-- The probability array reduces along its patch axis to the (batch entry, disease) array. -/
theorem reduces_patches : S32x1024x14.Reduces [1] S32x14 := by decide

/-- The reduced index (b, i) with patch k put back is (b, k, i). -/
theorem lift_patches (b : Fin 32) (i : Fin 14) (k : Fin (S32x1024x14.size 1)) :
    reduces_patches.lift (ix2 b i) k = ix3 b (⟨k.val, k.isLt⟩ : Fin 1024) i := by
  funext c; apply Fin.ext
  fin_cases c <;> rfl

set_option maxHeartbeats 60000 in
/-- The reference's second result, read at (b, i), is the specification's largest probability over the patches. -/
theorem ref_mlc (x0 : (⟨S32x1024x1024, .f32⟩ : BufTy).Contents (Elt Ideal)) (x1 : (⟨S14x2x1024, .f32⟩ : BufTy).Contents (Elt Ideal))
    (h0 : ∀ i, ∃ r : ℝ, x0 i = (r : EReal)) (h1 : ∀ i, ∃ r : ℝ, x1 i = (r : EReal)) (b : Fin 32) (i : Fin 14) :
    val_main_v18 (F := Ideal) x0 x1 (ix2 b i) = Spec.mlc (Spec.zOf x0) (Spec.kOf x1) b i := by
  have hy : ∀ s : Fin 1024, val_main_v17 (F := Ideal) x0 x1 (ix3 b s i) = Spec.prob (Spec.zOf x0) (Spec.kOf x1) b s i :=
    fun s => v17_eq_prob x0 x1 h0 h1 b s i
  unfold val_main_v18
  generalize val_main_v17 (F := Ideal) x0 x1 = y at hy ⊢
  rw [Host.reduce_eq_fold_single (α := Ideal .f32) (FloatOps.maximumf (F := Ideal) (φ := .f32)) y _ _ reduces_patches h_S_]
  have hf : (y ∘ reduces_patches.lift (ix2 b i)) = fun s : Fin 1024 => Spec.prob (Spec.zOf x0) (Spec.kOf x1) b s i :=
    funext fun k => (congrArg y (lift_patches b i k)).trans (hy _)
  rw [hf]
  unfold Spec.mlc
  show (Finset.univ : Finset (Fin 1024)).fold max (Ideal.ofBits .f32 0xFF800000#32) _ = _
  rw [ofBits_negInf]

end Cert.ReferenceIdeal.RefValue

end
-- ==== Proof.lean ====
/-
  A cross-attention block over a small disease memory, as a Pallas kernel tiled over (batch entry, tile of 256 patches),
  against its plain reference; both read at the extended reals.

  For each patch and each of 14 diseases the two scores are the contractions of the patch's features with the disease's two
  state rows, scaled by 1/32 (the kernel multiplies by the binary fraction 2^-5, the reference divides by 32: one function
  on every extended real). The kernel takes the probability of the "present" state as the logistic function of the score
  difference; the reference takes a two-way softmax and keeps its second entry. On real scores — and the scores are real,
  the inputs being finite — these agree: exp(s1 - m) / (exp(s0 - m) + exp(s1 - m)) = 1 / (1 + exp(-(s1 - s0))). This is the
  one place where the precondition is used. The attended row is the probabilities' combination of the "present" rows; the
  gate's logit contracts the patch's features against the left half of the gate's weights and the attended row against the
  right half (the reference contracts the concatenation of the two rows against all 2048 columns: the same sum, split in
  two), plus the bias; the output is the features plus the logistic of the logit times the attended row. The second result
  is the largest probability over a batch entry's 1024 patches: the kernel keeps a running maximum over the entry's four
  tiles in an output block that stays in place between them, the reference takes one maximum.

  Frames: each program runs to its end without a fault and leaves its arguments as they were. The kernel's body has two
  control cases (first tile of a batch entry: store the tile's maxima; later tile: join them with the block's contents), and
  what the summary block holds after each point is defined by recursion along the points.
-/
import proofs.«156527_j86320252715156_2_alg».proof.Defs
import proofs.«156527_j86320252715156_2_alg».proof.Proof.Gen.Kernel
import proofs.«156527_j86320252715156_2_alg».proof.Proof.Gen.KernelIdeal
import proofs.«156527_j86320252715156_2_alg».proof.Proof.Gen.ReferenceIdeal
import proofs.«156527_j86320252715156_2_alg».proof.Proof.Gen.Pre_finite_inputs
import proofs.«156527_j86320252715156_2_alg».proof.Proof.KB.Frame
import proofs.«156527_j86320252715156_2_alg».proof.Proof.KV.Run
import proofs.«156527_j86320252715156_2_alg».proof.Proof.KV.Finite
import proofs.«156527_j86320252715156_2_alg».proof.Proof.RefReadP
import proofs.«156527_j86320252715156_2_alg».proof.Proof.Ref.Zout
import proofs.«156527_j86320252715156_2_alg».proof.Proof.Ref.Mlc

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2.2) (Cert.ReferenceIdeal.ValueP.run (F := Ideal) m ρ)

/-- Both idealized programs end with the specification's two arrays of the (shared, finite) arguments. -/
theorem algebraic : Cert.algebraic_KernelIdeal_ReferenceIdeal := by
  intro m ρ m' ρ' hpre hagree
  refine ⟨fun c => Cert.KernelIdeal.Val.outArr m c, fun c => Cert.KernelIdeal.Val.mlcArr m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨r0, r1, -, -⟩ := Cert.Pre_finite_inputs.Reals.reals_of_fn _ _ _ _ (hpre c)
    rw [Cert.ReferenceIdeal.ReadP.val_main_v34_eq, (hagree c).1, (hagree c).2.1, (hagree c).2.2.1, (hagree c).2.2.2]
    funext j
    obtain ⟨b, s, d, rfl⟩ : ∃ (b : Fin 32) (s : Fin 1024) (d : Fin 1024), j = ix3 b s d := ⟨j 0, j 1, j 2, eq_ix3 j⟩
    exact Cert.ReferenceIdeal.RefValue.ref_zout _ _ _ _ r0 r1 b s d
  · obtain ⟨r0, r1, -, -⟩ := Cert.Pre_finite_inputs.Reals.reals_of_fn _ _ _ _ (hpre c)
    refine (Cert.ReferenceIdeal.ReadP.val_main_v18_eq _ _).trans ?_
    rw [(hagree c).1, (hagree c).2.1]
    funext j
    obtain ⟨b, i, rfl⟩ : ∃ (b : Fin 32) (i : Fin 14), j = ix2 b i := ⟨j 0, j 1, eq_ix2 j⟩
    exact Cert.ReferenceIdeal.RefValue.ref_mlc _ _ r0 r1 b i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
